-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg8 : FVec F S512 .f32) (main_arg9 : FVec F S512 .f32) (main_arg10 : FVec F S512 .f32) (main_arg11 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg5 : FVec F S512x512 .f32) (main_arg6 : FVec F S512 .f32) (main_arg7 : FVec F S512x512 .f32) (main_arg8 : FVec F S512 .f32) (main_arg9 : FVec F S512 .f32) (main_arg10 : FVec F S512 .f32) (main_arg11 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x512 .f32) (main_arg1 : IVec S2x400000 32) (main_arg2 : FVec F S512x512 .f32) (main_arg3 : FVec F S512 .f32) (main_arg4 : FVec F S512x512 .f32) (main_arg5 : FVec F S512x512 .f32) (main_arg6 : FVec F S512 .f32) (main_arg7 : FVec F S512x512 .f32) (main_arg8 : FVec F S512 .f32) (main_arg9 : FVec F S512 .f32) (main_arg10 : FVec F S512 .f32) (main_arg11 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_arg10 main_arg11 main_v13 main_v16
-- ==== Kernel.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S1x400000 : Shape := ⟨2, ![1, 400000]⟩
abbrev S400000 : Shape := ⟨1, ![400000]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S400000x512 : Shape := ⟨2, ![400000, 512]⟩
abbrev S1x512 : Shape := ⟨2, ![1, 512]⟩
abbrev S1000x512 : Shape := ⟨2, ![1000, 512]⟩
abbrev S1000 : Shape := ⟨1, ![1000]⟩
abbrev S1000x1 : Shape := ⟨2, ![1000, 1]⟩

abbrev nBuf : Space → Nat
  | .hbm => 71
  | .vmem => 22
  | .smem => 0
  | _ => 0

abbrev bufTy : (tb : Table) → Fin (tcTables nBuf tb) → BufTy
  | .hbm, ⟨0, _⟩ => ⟨S50000x512, .f32⟩
  | .hbm, ⟨1, _⟩ => ⟨S2x400000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S1x400000, .i32⟩
  | .hbm, ⟨13, _⟩ => ⟨S400000, .i32⟩
  | .hbm, ⟨14, _⟩ => ⟨S1x400000, .i32⟩
  | .hbm, ⟨15, _⟩ => ⟨S400000, .i32⟩
  | .hbm, ⟨16, _⟩ => ⟨S_, .f32⟩
  | .hbm, ⟨17, _⟩ => ⟨S400000, .f32⟩
  | .hbm, ⟨18, _⟩ => ⟨S_, .f32⟩
  | .hbm, ⟨19, _⟩ => ⟨S50000, .f32⟩
  | .hbm, ⟨20, _⟩ => ⟨S400000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S_, .i32⟩
  | .hbm, ⟨30, _⟩ => ⟨S400000, .i32⟩
  | .hbm, ⟨31, _⟩ => ⟨S400000, .i1⟩
  | .hbm, ⟨32, _⟩ => ⟨S_, .i32⟩
  | .hbm, ⟨33, _⟩ => ⟨S400000, .i32⟩
  | .hbm, ⟨34, _⟩ => ⟨S400000, .i32⟩
  | .hbm, ⟨35, _⟩ => ⟨S400000, .i32⟩
  | .hbm, ⟨36, _⟩ => ⟨S400000x1, .i32⟩
  | .hbm, ⟨37, _⟩ => ⟨S400000x512, .f32⟩
  | .hbm, ⟨38, _⟩ => ⟨S_, .f32⟩
  | .hbm, ⟨39, _⟩ => ⟨S50000x512, .f32⟩
  | .hbm, ⟨40, _⟩ => ⟨S400000x1, .i32⟩
  | .hbm, ⟨41, _⟩ => ⟨S50000x512, .f32⟩
  | .hbm, ⟨42, _⟩ => ⟨S50000x512, .f32⟩
  | .hbm, ⟨43, _⟩ => ⟨S50000x512, .f32⟩
  | .hbm, ⟨44, _⟩ => ⟨S512x512, .f32⟩
  | .hbm, ⟨45, _⟩ => ⟨S512x512, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S50000x512, .f32⟩
  | .hbm, ⟨50, _⟩ => ⟨S_, .i32⟩
  | .hbm, ⟨51, _⟩ => ⟨S400000, .i32⟩
  | .hbm, ⟨52, _⟩ => ⟨S400000, .i1⟩
  | .hbm, ⟨53, _⟩ => ⟨S_, .i32⟩
  | .hbm, ⟨54, _⟩ => ⟨S400000, .i32⟩
  | .hbm, ⟨55, _⟩ => ⟨S400000, .i32⟩
  | .hbm, ⟨56, _⟩ => ⟨S400000, .i32⟩
  | .hbm, ⟨57, _⟩ => ⟨S400000x1, .i32⟩
  | .hbm, ⟨58, _⟩ => ⟨S400000x512, .f32⟩
  | .hbm, ⟨59, _⟩ => ⟨S_, .f32⟩
  | .hbm, ⟨60, _⟩ => ⟨S50000x512, .f32⟩
  | .hbm, ⟨61, _⟩ => ⟨S400000x1, .i32⟩
  | .hbm, ⟨62, _⟩ => ⟨S50000x512, .f32⟩
  | .hbm, ⟨63, _⟩ => ⟨S50000x512, .f32⟩
  | .hbm, ⟨64, _⟩ => ⟨S50000x512, .f32⟩
  | .hbm, ⟨65, _⟩ => ⟨S512x512, .f32⟩
  | .hbm, ⟨66, _⟩ => ⟨S512x512, .f32⟩
  | .hbm, ⟨67, _⟩ => ⟨S1x512, .f32⟩
  | .hbm, ⟨68, _⟩ => ⟨S1x512, .f32⟩
  | .hbm, ⟨69, _⟩ => ⟨S1x512, .f32⟩
  | .hbm, ⟨70, _⟩ => ⟨S50000x512, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S1000x512, .f32⟩
  | .local _ .vmem, ⟨14, _⟩ => ⟨S1000x512, .f32⟩
  | .local _ .vmem, ⟨15, _⟩ => ⟨S512x512, .f32⟩
  | .local _ .vmem, ⟨16, _⟩ => ⟨S512x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1000x512, .f32⟩
  | .local _ .vmem, ⟨21, _⟩ => ⟨S1000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  bcast_S_S50000x512 : S_.BroadcastsInDim S50000x512 (![] : Fin 0 → Fin S50000x512.rank)
  bcast_S50000x1_S50000x512_0_1 : S50000x1.BroadcastsInDim S50000x512 (![0, 1] : Fin 2 → Fin S50000x512.rank)
  transposes_S512x512_S512x512_1_0 : S512x512.Transposes [1, 0] S512x512
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  reduces_S1000x512_S1000 : S1000x512.Reduces [1] S1000
  shapeCasts_S1000_S1000x1 : S1000.ShapeCasts S1000x1
  broadcasts_S1000x1_S1000x512 : S1000x1.Broadcasts S1000x512
  scatter_S50000_S400000x1_S400000_n_0_0_1_wf : ScatterDims.WF S50000 S400000x1 S400000 [] [0] [0] 1
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S50000x512.size a
  hwx0_1 : ∀ i : grid0.Coords, EltTy.bits .f32 = 32 ∨ (Rect.block (s := S50000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x512.size a ≤ S50000x512.size a
  hwx0_7 : ∀ i : grid0.Coords, EltTy.bits .f32 = 32 ∨ (Rect.block (s := S50000x512) S1000x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S50000x512.size a
  hwx1_1 : ∀ i : grid1.Coords, EltTy.bits .f32 = 32 ∨ (Rect.block (s := S50000x512) S1000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x512.size a ≤ S50000x512.size a
  hwx1_7 : ∀ i : grid1.Coords, EltTy.bits .f32 = 32 ∨ (Rect.block (s := S50000x512) S1000x512.size (cc1_transform_7 i) (hinb1_7 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v24) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S1000x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v42) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48) S1000x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S512x512 : Shape := ⟨2, ![512, 512]⟩
abbrev S512 : Shape := ⟨1, ![512]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x512 : Shape := ⟨2, ![400000, 512]⟩
abbrev S50000 : Shape := ⟨1, ![50000]⟩
abbrev S50000x1 : Shape := ⟨2, ![50000, 1]⟩
abbrev S1x512 : Shape := ⟨2, ![1, 512]⟩

abbrev nBuf : Space → Nat
  | .hbm => 145
  | .vmem => 0
  | .smem => 0
  | _ => 0

abbrev hbmTy0_0 (i : Nat) : BufTy := match i % 128 with
  | 0 => ⟨S50000x512, .f32⟩
  | 1 => ⟨S2x400000, .i32⟩
  | 2 => ⟨S512x512, .f32⟩
  | 3 => ⟨S512, .f32⟩
  | 4 => ⟨S512x512, .f32⟩
  | 5 => ⟨S512x512, .f32⟩
  | 6 => ⟨S512, .f32⟩
  | 7 => ⟨S512x512, .f32⟩
  | 8 => ⟨S512, .f32⟩
  | 9 => ⟨S512, .f32⟩
  | 10 => ⟨S512, .f32⟩
  | 11 => ⟨S512, .f32⟩
  | 12 => ⟨S1x400000, .i32⟩
  | 13 => ⟨S400000, .i32⟩
  | 14 => ⟨S1x400000, .i32⟩
  | 15 => ⟨S400000, .i32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S400000x512, .f32⟩
  | 25 => ⟨S_, .f32⟩
  | 26 => ⟨S50000x512, .f32⟩
  | 27 => ⟨S400000x1, .i32⟩
  | 28 => ⟨S50000x512, .f32⟩
  | 29 => ⟨S_, .f32⟩
  | 30 => ⟨S400000, .f32⟩
  | 31 => ⟨S_, .f32⟩
  | 32 => ⟨S50000, .f32⟩
  | 33 => ⟨S400000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x512, .f32⟩
  | 40 => ⟨S50000x512, .f32⟩
  | 41 => ⟨S512x512, .f32⟩
  | 42 => ⟨S50000x512, .f32⟩
  | 43 => ⟨S1x512, .f32⟩
  | 44 => ⟨S50000x512, .f32⟩
  | 45 => ⟨S50000x512, .f32⟩
  | 46 => ⟨S512x512, .f32⟩
  | 47 => ⟨S50000x512, .f32⟩
  | 48 => ⟨S50000x512, .f32⟩
  | 49 => ⟨S_, .f32⟩
  | 50 => ⟨S50000, .f32⟩
  | 51 => ⟨S50000x1, .f32⟩
  | 52 => ⟨S_, .f32⟩
  | 53 => ⟨S50000x1, .f32⟩
  | 54 => ⟨S50000x1, .f32⟩
  | 55 => ⟨S50000x512, .f32⟩
  | 56 => ⟨S50000x512, .f32⟩
  | 57 => ⟨S50000x512, .f32⟩
  | 58 => ⟨S_, .f32⟩
  | 59 => ⟨S50000, .f32⟩
  | 60 => ⟨S50000x1, .f32⟩
  | 61 => ⟨S_, .f32⟩
  | 62 => ⟨S50000x1, .f32⟩
  | 63 => ⟨S50000x1, .f32⟩
  | 64 => ⟨S50000x512, .f32⟩
  | 65 => ⟨S50000x512, .f32⟩
  | 66 => ⟨S_, .f32⟩
  | 67 => ⟨S50000x1, .f32⟩
  | 68 => ⟨S50000x1, .f32⟩
  | 69 => ⟨S50000x1, .f32⟩
  | 70 => ⟨S50000x512, .f32⟩
  | 71 => ⟨S50000x512, .f32⟩
  | 72 => ⟨S1x512, .f32⟩
  | 73 => ⟨S50000x512, .f32⟩
  | 74 => ⟨S50000x512, .f32⟩
  | 75 => ⟨S1x512, .f32⟩
  | 76 => ⟨S50000x512, .f32⟩
  | 77 => ⟨S50000x512, .f32⟩
  | 78 => ⟨S_, .f32⟩
  | 79 => ⟨S50000x512, .f32⟩
  | 80 => ⟨S50000x512, .f32⟩
  | 81 => ⟨S50000x512, .f32⟩
  | 82 => ⟨S_, .i32⟩
  | 83 => ⟨S400000, .i32⟩
  | 84 => ⟨S400000, .i1⟩
  | 85 => ⟨S_, .i32⟩
  | 86 => ⟨S400000, .i32⟩
  | 87 => ⟨S400000, .i32⟩
  | 88 => ⟨S400000, .i32⟩
  | 89 => ⟨S400000x1, .i32⟩
  | 90 => ⟨S400000x512, .f32⟩
  | 91 => ⟨S_, .f32⟩
  | 92 => ⟨S50000x512, .f32⟩
  | 93 => ⟨S400000x1, .i32⟩
  | 94 => ⟨S50000x512, .f32⟩
  | 95 => ⟨S_, .f32⟩
  | 96 => ⟨S400000, .f32⟩
  | 97 => ⟨S_, .f32⟩
  | 98 => ⟨S50000, .f32⟩
  | 99 => ⟨S400000x1, .i32⟩
  | 100 => ⟨S50000, .f32⟩
  | 101 => ⟨S_, .f32⟩
  | 102 => ⟨S50000, .f32⟩
  | 103 => ⟨S50000, .f32⟩
  | 104 => ⟨S50000x1, .f32⟩
  | 105 => ⟨S50000x512, .f32⟩
  | 106 => ⟨S50000x512, .f32⟩
  | 107 => ⟨S512x512, .f32⟩
  | 108 => ⟨S50000x512, .f32⟩
  | 109 => ⟨S1x512, .f32⟩
  | 110 => ⟨S50000x512, .f32⟩
  | 111 => ⟨S50000x512, .f32⟩
  | 112 => ⟨S512x512, .f32⟩
  | 113 => ⟨S50000x512, .f32⟩
  | 114 => ⟨S50000x512, .f32⟩
  | 115 => ⟨S_, .f32⟩
  | 116 => ⟨S50000, .f32⟩
  | 117 => ⟨S50000x1, .f32⟩
  | 118 => ⟨S_, .f32⟩
  | 119 => ⟨S50000x1, .f32⟩
  | 120 => ⟨S50000x1, .f32⟩
  | 121 => ⟨S50000x512, .f32⟩
  | 122 => ⟨S50000x512, .f32⟩
  | 123 => ⟨S50000x512, .f32⟩
  | 124 => ⟨S_, .f32⟩
  | 125 => ⟨S50000, .f32⟩
  | 126 => ⟨S50000x1, .f32⟩
  | 127 => ⟨S_, .f32⟩
  | _ => ⟨S50000x512, .f32⟩

abbrev hbmTy0_1 (i : Nat) : BufTy := match i % 128 with
  | 0 => ⟨S50000x1, .f32⟩
  | 1 => ⟨S50000x1, .f32⟩
  | 2 => ⟨S50000x512, .f32⟩
  | 3 => ⟨S50000x512, .f32⟩
  | 4 => ⟨S_, .f32⟩
  | 5 => ⟨S50000x1, .f32⟩
  | 6 => ⟨S50000x1, .f32⟩
  | 7 => ⟨S50000x1, .f32⟩
  | 8 => ⟨S50000x512, .f32⟩
  | 9 => ⟨S50000x512, .f32⟩
  | 10 => ⟨S1x512, .f32⟩
  | 11 => ⟨S50000x512, .f32⟩
  | 12 => ⟨S50000x512, .f32⟩
  | 13 => ⟨S1x512, .f32⟩
  | 14 => ⟨S50000x512, .f32⟩
  | 15 => ⟨S50000x512, .f32⟩
  | 16 => ⟨S50000x512, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call0_cst : Ref sig .tc := ⟨.hbm, 78, rfl⟩
abbrev main_call0_v0 : Ref sig .tc := ⟨.hbm, 79, rfl⟩
abbrev main_v55 : Ref sig .tc := ⟨.hbm, 80, rfl⟩
abbrev main_v56 : Ref sig .tc := ⟨.hbm, 81, rfl⟩
abbrev main_c_9 : Ref sig .tc := ⟨.hbm, 82, rfl⟩
abbrev main_v57 : Ref sig .tc := ⟨.hbm, 83, rfl⟩
abbrev main_v58 : Ref sig .tc := ⟨.hbm, 84, rfl⟩
abbrev main_c_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_12 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_15 : Ref sig .tc := ⟨.hbm, 115, rfl⟩
abbrev main_v84 : Ref sig .tc := ⟨.hbm, 116, rfl⟩
abbrev main_v85 : Ref sig .tc := ⟨.hbm, 117, rfl⟩
abbrev main_cst_16 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_17 : Ref sig .tc := ⟨.hbm, 124, rfl⟩
abbrev main_v91 : Ref sig .tc := ⟨.hbm, 125, rfl⟩
abbrev main_v92 : Ref sig .tc := ⟨.hbm, 126, rfl⟩
abbrev main_cst_18 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_19 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  transposes_S512x512_S512x512_1_0 : S512x512.Transposes [1, 0] S512x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  reducesTo_S50000x512_S50000_d1 : S50000x512.ReducesTo [1] S50000
  h_S_ : 0 < S_.numel
  bcast_S_S50000x1 : S_.BroadcastsInDim S50000x1 (![] : Fin 0 → Fin S50000x1.rank)
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  scatter_S50000_S400000x1_S400000_n_0_0_1_wf : ScatterDims.WF S50000 S400000x1 S400000 [] [0] [0] 1
  dot_S50000x512_S512x512_S50000x512_1_0_0_1_n_n_wf : DotDims.WF S50000x512 S512x512 S50000x512 [1] [0] [0] [1] [] []

variable [Facts₀]

def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf

class Facts : Prop extends Facts₀ where

variable [Facts]
-- ==== Proof.KernelRun.lean ====
/-
  The idealized kernel's run with its result named.

  @main is four stretches: host operations, the first fused layer (a pipelined region), host operations on its
  output, the second fused layer. The buffers' contents at each boundary are a fold from the launch memory; at
  the last boundary the second region's output array holds what its write-backs leave, and every other buffer
  what it held when that region was entered. Every weakly fair execution terminates in a state whose unscoped
  buffers are exactly that last boundary's contents; read at the result buffer this names the result, and read
  at an argument it is the launch contents.
-/
import proofs.«123757_j85555748536460_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and every argument array as launched. -/
theorem run : θ_run defs (onTc (τ := τ) (main (F := F))) ⟨m, fun _ => 0, ρ⟩ (fun r => ∀ c : Dev nD,
      r.2.mem ((c.tc : Thread nD τ).loc main_v48) = W4 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v48 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

/-- The result buffer is the second region's output array: at the last boundary it holds the fold of that
    region's write-backs over all fifty grid points. -/
theorem result_eq (c : Dev nD) :
    W4 m ρ c (Proc.devRef .tc main_v48) = (dat1 (V3 m ρ) c).arrAt 7 cfg1.N :=
  W4_arr m ρ c 7

end Cert.KernelIdeal.ValueRun

end
-- ==== Proof.LibKeepdims.lean ====
/-
  Two layout operations of a row-wise reduction kept as a column, read at an index.

  A sum along the rows of an a × b array is a vector of length a; kept as an a × 1 column it is the same vector
  (entry (i, 0) is entry i), and broadcast back to a × b every entry of row p is the column's entry (p, 0).
  General in the extents; nothing here mentions a program.
-/
import Idealize.ShloMosaic.Lib.Pipeline.Value
import Idealize.ShloMosaic.Lib.ValueIdx

namespace Cert.Lib.Keepdims

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.RowSpec.lean ====
/-
  One row of a SAGE convolution followed by LayerNorm, over the extended reals.

  For a node with aggregated neighbour features `a` and own features `s` (both of length 512), weights `Wl`, `Wr`
  indexed (input feature, output feature), a bias `bl` and the LayerNorm scale and shift `lnw`, `lnb`:
    lin k    = (∑ j, a j · Wl j k + bl k) + ∑ j, s j · Wr j k
    mean f   = (∑ k, f k) / 512
    normed k = ((lin k − mean lin) · rsqrt (mean (fun k' => (lin k' − mean lin)²) + ε)) · lnw k + lnb k
  and the layer's output is `normed k + s k`, with `normed k` first clamped below at zero in the first layer.
  Every entry of an output row depends on that row of `a` and of `s` only, which is why a row tile of the
  output is the same function of the matching row tiles of the inputs. 512, ε and 0 are the f32 words both programs
  print; they are never evaluated here.
-/
import Idealize.ShloMosaic.PureOps.Ideal

noncomputable section

namespace Cert.RowSpec

open Idealize.ShloMosaic

/-- The divisor of both means: the f32 word of 512. -/
abbrev c512 : EReal := Ideal.ofBits .f32 0x44000000#32
/-- The variance's ε: the f32 word nearest 1e-5, the same word in both programs. -/
abbrev ceps : EReal := Ideal.ofBits .f32 0x3727C5AC#32
/-- The f32 zero word (the floor of the first layer's clamp). -/
abbrev czero : EReal := Ideal.ofBits .f32 0x00000000#32

/-- The linear part: neighbours through `Wl`, plus the bias, plus the node itself through `Wr`, in that order. -/
def lin (a s : Fin 512 → EReal) (Wl Wr : Fin 512 → Fin 512 → EReal) (bl : Fin 512 → EReal) (k : Fin 512) : EReal :=
  ((∑ j : Fin 512, a j * Wl j k) + bl k) + ∑ j : Fin 512, s j * Wr j k

/-- The mean of a row: its sum divided by 512. -/
def mean (f : Fin 512 → EReal) : EReal := Ideal.div (∑ k : Fin 512, f k) c512

/-- LayerNorm of a row `f`, scaled by `lnw` and shifted by `lnb`. -/
def normed (f lnw lnb : Fin 512 → EReal) (k : Fin 512) : EReal :=
  ((f k - mean f) * Ideal.rsqrt (mean (fun k' => (f k' - mean f) * (f k' - mean f)) + ceps)) * lnw k + lnb k

/-- First layer: LayerNorm of the linear part, clamped below at zero, plus the node's own features. -/
def row1 (a s : Fin 512 → EReal) (Wl Wr : Fin 512 → Fin 512 → EReal) (bl lnw lnb : Fin 512 → EReal) (k : Fin 512) : EReal :=
  max (normed (lin a s Wl Wr bl) lnw lnb k) czero + s k

/-- Second layer: LayerNorm of the linear part plus the node's own features (no clamp). -/
def row2 (a s : Fin 512 → EReal) (Wl Wr : Fin 512 → Fin 512 → EReal) (bl lnw lnb : Fin 512 → EReal) (k : Fin 512) : EReal :=
  normed (lin a s Wl Wr bl) lnw lnb k + s k

end Cert.RowSpec

end
-- ==== Proof.KernelBlock.lean ====
/-
  What one grid point of a fused layer computes, entry by entry.

  The body loads a 1000-row tile of the aggregated features and of the node features, the two 512 × 512 weight
  matrices and three 1 × 512 rows (bias, LayerNorm scale, LayerNorm shift). Over the extended reals the narrowing to
  bf16 is the identity, the matrix product into a zero accumulator is the plain sum over the contracted feature,
  and a lane reduction is the plain sum along the row; so the stored tile's entry (p, k) is the row function of
  row p of the two tiles: `RowSpec.row1` in the first layer, `RowSpec.row2` in the second.
-/
import proofs.«123757_j85555748536460_1_alg».proof.Proof.Gen.KernelIdeal.Skeleton
import proofs.«123757_j85555748536460_1_alg».proof.Proof.LibKeepdims
import proofs.«123757_j85555748536460_1_alg».proof.Proof.RowSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx Cert.RowSpec

/-! ## The contraction's operand indices -/

theorem lhs0 (i : S1000x512.Idx) (q : dot_S1000x512_S512x512_S1000x512_1_0_0_1_n_n.contr.Idx) : (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide), dif_pos (show (0 : Fin S1000x512.rank) ∈ dot_S1000x512_S512x512_S1000x512_1_0_0_1_n_n.lhsNonContracting by decide)]
  rfl
theorem lhs1 (i : S1000x512.Idx) (q : dot_S1000x512_S512x512_S1000x512_1_0_0_1_n_n.contr.Idx) : (dot_S1000x512_S512x512_S1000x512_1_0_0_1_n_n.lhsIdx i q 1).val = (q ⟨0, by decide⟩).val :=
  dot_S1000x512_S512x512_S1000x512_1_0_0_1_n_n.lhsIdx_val_of_single rfl i q
theorem rhs0 (i : S1000x512.Idx) (q : dot_S1000x512_S512x512_S1000x512_1_0_0_1_n_n.contr.Idx) : (dot_S1000x512_S512x512_S1000x512_1_0_0_1_n_n.rhsIdx i q 0).val = (q ⟨0, by decide⟩).val :=
  dot_S1000x512_S512x512_S1000x512_1_0_0_1_n_n.rhsIdx_val_of_single rfl i q
theorem rhs1 (i : S1000x512.Idx) (q : dot_S1000x512_S512x512_S1000x512_1_0_0_1_n_n.contr.Idx) : (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide), dif_pos (show (1 : Fin S512x512.rank) ∈ dot_S1000x512_S512x512_S1000x512_1_0_0_1_n_n.rhsNonContracting by decide)]
  rfl

/-- A tile times a weight matrix into a zero accumulator: entry (p, k) is the sum over the contracted feature j of
    the tile's (p, j) times the matrix's (j, k). -/
theorem matmul_at (A : FVec Ideal S1000x512 .bf16) (B : FVec Ideal S512x512 .bf16) (p : Fin 1000) (k : Fin 512) :
    matmul dot_S1000x512_S512x512_S1000x512_1_0_0_1_n_n none A B (constant (F := Ideal) S1000x512 .f32 0x00000000#32) (ix2 p k)
      = ∑ j : Fin 512, A (ix2 p j) * B (ix2 j k) := by
  refine (Ideal.matmul_constant_zero_apply dot_S1000x512_S512x512_S1000x512_1_0_0_1_n_n none A B (ix2 p k)).trans ?_
  rw [← Equiv.sum_comp (ValueIdx.contrEquiv1 dot_S1000x512_S512x512_S1000x512_1_0_0_1_n_n 512 rfl rfl).symm]
  refine Finset.sum_congr rfl fun j _ => ?_
  have hk := ValueIdx.contrEquiv1_symm_val dot_S1000x512_S512x512_S1000x512_1_0_0_1_n_n 512 rfl rfl j
  have el : dot_S1000x512_S512x512_S1000x512_1_0_0_1_n_n.lhsIdx (ix2 p k) ((ValueIdx.contrEquiv1 dot_S1000x512_S512x512_S1000x512_1_0_0_1_n_n 512 rfl rfl).symm j) = ix2 p j := funext fun a => Fin.ext (by
    match a with
    | ⟨0, _⟩ => exact lhs0 _ _
    | ⟨1, _⟩ => exact (lhs1 _ _).trans hk)
  have er : dot_S1000x512_S512x512_S1000x512_1_0_0_1_n_n.rhsIdx (ix2 p k) ((ValueIdx.contrEquiv1 dot_S1000x512_S512x512_S1000x512_1_0_0_1_n_n 512 rfl rfl).symm j) = ix2 j k := funext fun a => Fin.ext (by
    match a with
    | ⟨0, _⟩ => exact (rhs0 _ _).trans hk
    | ⟨1, _⟩ => exact rhs1 _ _)
  rw [el, er]

/-- A lane sum of a tile: entry p is the sum of row p. -/
theorem rowsum_at (v : FVec Ideal S1000x512 .f32) (hφ : FTy.f32 = FTy.f32 ∨ FTy.f32 = FTy.bf16) (hacc : (0x00000000#32 : BitVec 32) = 0x00000000#32) (p : Fin 1000) :
    multiReduction .add (no_index [1]) S1000 v 0x00000000#32 reduces_S1000x512_S1000 hφ hacc (ix1 p) = ∑ k : Fin 512, v (ix2 p k) := by
  refine (Ideal.multiReduction_add_single v 0x00000000#32 reduces_S1000x512_S1000 hφ hacc (ix1 p)).trans ?_
  refine Finset.sum_congr rfl fun k _ => ?_
  exact congrArg v (funext fun a => Fin.ext (by match a with | ⟨0, _⟩ => rfl | ⟨1, _⟩ => rfl))

/-- The row sums kept as a column. -/
theorem col_at (w : FVec Ideal S1000 .f32) (p : Fin 1000) (u : Fin 1) :
    shapeCast S1000x1 w shapeCasts_S1000_S1000x1 (ix2 p u) = w (ix1 p) :=
  Cert.Lib.Keepdims.shapeCast_a_a1_apply w shapeCasts_S1000_S1000x1 p u

/-- A column broadcast along the rows. -/
theorem bcol_at (c : FVec Ideal S1000x1 .f32) (p : Fin 1000) (k : Fin 512) :
    broadcastTo S1000x512 c broadcasts_S1000x1_S1000x512 (ix2 p k) = c (ix2 p (0 : Fin 1)) :=
  Cert.Lib.Keepdims.broadcastTo_a1_ab_apply c broadcasts_S1000x1_S1000x512 p k

/-- A 1 × 512 row broadcast down the tile. -/
theorem brow_at (r : FVec Ideal S1x512 .f32) (p : Fin 1000) (k : Fin 512) :
    broadcastTo S1000x512 r broadcasts_S1x512_S1000x512 (ix2 p k) = r (ix2 (0 : Fin 1) k) :=
  broadcastTo_1b_ab_apply r broadcasts_S1x512_S1000x512 p k

theorem rsqrt_at (v : FVec Ideal S1000x1 .f32) (i : S1000x1.Idx) : rsqrt v i = Ideal.rsqrt (v i) := rfl

/-! ## The stored tile -/

/-- First layer: the stored tile's entry (p, k). -/
theorem pay0_at (x0 x1 : FVec Ideal S1000x512 .f32) (x2 x3 : FVec Ideal S512x512 .f32) (x4 x5 x6 : FVec Ideal S1x512 .f32)
    (p : Fin 1000) (k : Fin 512) :
    k0_pay1 (F := Ideal) (k0_pay2 (F := Ideal) x0 x1 x2 x3 x4 x5) x6 x1 (ix2 p k)
      = row1 (fun j => x0 (ix2 p j)) (fun j => x1 (ix2 p j)) (fun j k => x2 (ix2 j k)) (fun j k => x3 (ix2 j k))
          (fun k => x4 (ix2 (0 : Fin 1) k)) (fun k => x5 (ix2 (0 : Fin 1) k)) (fun k => x6 (ix2 (0 : Fin 1) k)) k := by
  unfold k0_pay1 k0_pay2 row1 normed mean lin
  simp only [shapeCast_self, addf_apply, mulf_apply, subf_apply, divf_apply, maximumf_apply, broadcast_apply, truncf_apply,
    brow_at, bcol_at, col_at, rowsum_at, matmul_at, rsqrt_at]
  rfl

/-- Second layer: the stored tile's entry (p, k). -/
theorem pay1_at (x0 x1 : FVec Ideal S1000x512 .f32) (x2 x3 : FVec Ideal S512x512 .f32) (x4 x5 x6 : FVec Ideal S1x512 .f32)
    (p : Fin 1000) (k : Fin 512) :
    k1_pay1 (F := Ideal) (k1_pay2 (F := Ideal) x0 x1 x2 x3 x4) (k1_pay3 (F := Ideal) x5) x6 x1 (ix2 p k)
      = row2 (fun j => x0 (ix2 p j)) (fun j => x1 (ix2 p j)) (fun j k => x2 (ix2 j k)) (fun j k => x3 (ix2 j k))
          (fun k => x4 (ix2 (0 : Fin 1) k)) (fun k => x5 (ix2 (0 : Fin 1) k)) (fun k => x6 (ix2 (0 : Fin 1) k)) k := by
  unfold k1_pay1 k1_pay2 k1_pay3 row2 normed mean lin
  simp only [shapeCast_self, addf_apply, mulf_apply, subf_apply, divf_apply, maximumf_apply, broadcast_apply, truncf_apply,
    brow_at, bcol_at, col_at, rowsum_at, matmul_at, rsqrt_at]
  rfl

end Cert.KernelIdeal.Block

end
-- ==== Proof.KernelArray.lean ====
/-
  From tiles to arrays.

  Each fused layer is a pipelined region over fifty grid points; point t loads rows t·1000 … t·1000 + 999 of the two
  row-tiled inputs, the whole of the two weight matrices and of the three 1 × 512 rows, and writes back rows
  t·1000 … t·1000 + 999 of the output. Because an output row depends on the same row of the inputs only, what point t
  writes back is block t of ONE whole-array function (`layer1`, `layer2`) of the arrays the region found; the
  fifty blocks tile the 50000 rows, so after the region the output array is that function.
  Stated at arbitrary region-entry contents `V`: the run instantiates them per region.
-/
import proofs.«123757_j85555748536460_1_alg».proof.Proof.Gen.KernelIdeal.Frame
import proofs.«123757_j85555748536460_1_alg».proof.Proof.KernelBlock
import Idealize.ShloMosaic.Lib.Pipeline.Value

set_option maxRecDepth 16384

noncomputable section

namespace Cert.KernelIdeal.Arr

open Cert.KernelIdeal Cert.KernelIdeal.Gen Idealize.ShloMosaic Idealize.ShloMosaic.TcCoe Idealize.ShloMosaic.ValueIdx Cert.RowSpec
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The row of an index of a 50000 × 512 array. -/
abbrev rowOf (i : S50000x512.Idx) : Fin 50000 := ⟨(i 0).val, (i 0).isLt⟩
/-- The column of an index of a 50000 × 512 array. -/
abbrev colOf (i : S50000x512.Idx) : Fin 512 := ⟨(i 1).val, (i 1).isLt⟩

/-! ## Region 0 -/

/-- The printed index maps of region 0, decided once over its fifty grid points: the two row-tiled inputs move with
    the output's block row, which is the point's number; every other block index is zero. -/
theorem idx_facts0 : ∀ t : Fin cfg0.N,
      win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The first layer as one function of whole arrays: entry (r, k) is the row function of row r of the aggregated and the node features. -/
def layer1 (A S : S50000x512.Idx → EReal) (Wl Wr : S512x512.Idx → EReal) (bl lnw lnb : S1x512.Idx → EReal) :
    S50000x512.Idx → EReal := fun i =>
  row1 (fun j => A (ix2 (rowOf i) j)) (fun j => S (ix2 (rowOf i) j)) (fun j k => Wl (ix2 j k)) (fun j k => Wr (ix2 j k))
    (fun k => bl (ix2 (0 : Fin 1) k)) (fun k => lnw (ix2 (0 : Fin 1) k)) (fun k => lnb (ix2 (0 : Fin 1) k)) (colOf i)

/-- WHAT POINT `t` WRITES BACK is block `t` of the layer's whole-array function of the arrays as the region finds them. -/
theorem flushed0 (c : Dev nD) (t : Fin cfg0.N) :
    (dat0 V c).flushed 7 t = ((cfg0.win 7).blk t).view.read (Elt Ideal)
      (layer1 (V c main_v24) (V c main_arg0) (V c main_v25) (V c main_v26) (V c main_v27) (V c main_v28) (V c main_v29)) := by
  show (cfg0.win 7).cut (grid0.coords t) ((dat0 V c).after 7 t) = _
  rw [after0_7]
  unfold out0_7
  rw [View.canon_unit_zero hz]
  simp only [View.ld_unit_zero (S := S1000x512) hz, View.ld_unit_zero (S := S512x512) hz, View.ld_unit_zero (S := S1x512) hz]
  obtain ⟨e70, e71, e00, e01, e10, e11, e20, e21, e30, e31, e40, e41, e50, e51, e60, e61⟩ := idx_facts0 t
  funext y
  obtain ⟨p, k, rfl⟩ : ∃ (p : Fin 1000) (k : Fin 512), y = ix2 p k := ⟨y 0, y 1, eq_ix2 y⟩
  refine (Cert.KernelIdeal.Block.pay0_at (iblk0 V c 0 t) (iblk0 V c 1 t) (iblk0 V c 2 t) (iblk0 V c 3 t) (iblk0 V c 4 t) (iblk0 V c 5 t) (iblk0 V c 6 t) p k).trans ?_
  show _ = layer1 (V c main_v24) (V c main_arg0) (V c main_v25) (V c main_v26) (V c main_v27) (V c main_v28) (V c main_v29) (((cfg0.win 7).blk t).view.emb (ix2 p k))
  have hp : p.val < 1000 := p.isLt
  have hk : k.val < 512 := k.isLt
  have hA : ∀ j : Fin 512, iblk0 V c 0 t (ix2 p j) = V c main_v24 (ix2 (rowOf (((cfg0.win 7).blk t).view.emb (ix2 p k))) j) := fun j => by
    show V c main_v24 (((cfg0.win 0).blk t).view.emb (ix2 p j)) = _
    refine congrArg (V c main_v24) (funext fun a => Fin.ext ?_)
    match a with
    | ⟨0, _⟩ => show win0_0.index t (0 : Fin 2) * 1000 + 1 * p.val = win0_7.index t (0 : Fin 2) * 1000 + 1 * p.val; omega
    | ⟨1, _⟩ => show win0_0.index t (1 : Fin 2) * 512 + 1 * j.val = j.val; omega
  have hS : ∀ j : Fin 512, iblk0 V c 1 t (ix2 p j) = V c main_arg0 (ix2 (rowOf (((cfg0.win 7).blk t).view.emb (ix2 p k))) j) := fun j => by
    show V c main_arg0 (((cfg0.win 1).blk t).view.emb (ix2 p j)) = _
    refine congrArg (V c main_arg0) (funext fun a => Fin.ext ?_)
    match a with
    | ⟨0, _⟩ => show win0_1.index t (0 : Fin 2) * 1000 + 1 * p.val = win0_7.index t (0 : Fin 2) * 1000 + 1 * p.val; omega
    | ⟨1, _⟩ => show win0_1.index t (1 : Fin 2) * 512 + 1 * j.val = j.val; omega
  have hWl : ∀ (j k' : Fin 512), iblk0 V c 2 t (ix2 j k') = V c main_v25 (ix2 j k') := fun j k' => by
    show V c main_v25 (((cfg0.win 2).blk t).view.emb (ix2 j k')) = _
    refine congrArg (V c main_v25) (funext fun a => Fin.ext ?_)
    match a with
    | ⟨0, _⟩ => show win0_2.index t (0 : Fin 2) * 512 + 1 * j.val = j.val; omega
    | ⟨1, _⟩ => show win0_2.index t (1 : Fin 2) * 512 + 1 * k'.val = k'.val; omega
  have hWr : ∀ (j k' : Fin 512), iblk0 V c 3 t (ix2 j k') = V c main_v26 (ix2 j k') := fun j k' => by
    show V c main_v26 (((cfg0.win 3).blk t).view.emb (ix2 j k')) = _
    refine congrArg (V c main_v26) (funext fun a => Fin.ext ?_)
    match a with
    | ⟨0, _⟩ => show win0_3.index t (0 : Fin 2) * 512 + 1 * j.val = j.val; omega
    | ⟨1, _⟩ => show win0_3.index t (1 : Fin 2) * 512 + 1 * k'.val = k'.val; omega
  have hbl : ∀ k' : Fin 512, iblk0 V c 4 t (ix2 (0 : Fin 1) k') = V c main_v27 (ix2 (0 : Fin 1) k') := fun k' => by
    show V c main_v27 (((cfg0.win 4).blk t).view.emb (ix2 (0 : Fin 1) k')) = _
    refine congrArg (V c main_v27) (funext fun a => Fin.ext ?_)
    match a with
    | ⟨0, _⟩ => show win0_4.index t (0 : Fin 2) * 1 + 1 * 0 = 0; omega
    | ⟨1, _⟩ => show win0_4.index t (1 : Fin 2) * 512 + 1 * k'.val = k'.val; omega
  have hlw : ∀ k' : Fin 512, iblk0 V c 5 t (ix2 (0 : Fin 1) k') = V c main_v28 (ix2 (0 : Fin 1) k') := fun k' => by
    show V c main_v28 (((cfg0.win 5).blk t).view.emb (ix2 (0 : Fin 1) k')) = _
    refine congrArg (V c main_v28) (funext fun a => Fin.ext ?_)
    match a with
    | ⟨0, _⟩ => show win0_5.index t (0 : Fin 2) * 1 + 1 * 0 = 0; omega
    | ⟨1, _⟩ => show win0_5.index t (1 : Fin 2) * 512 + 1 * k'.val = k'.val; omega
  have hlb : ∀ k' : Fin 512, iblk0 V c 6 t (ix2 (0 : Fin 1) k') = V c main_v29 (ix2 (0 : Fin 1) k') := fun k' => by
    show V c main_v29 (((cfg0.win 6).blk t).view.emb (ix2 (0 : Fin 1) k')) = _
    refine congrArg (V c main_v29) (funext fun a => Fin.ext ?_)
    match a with
    | ⟨0, _⟩ => show win0_6.index t (0 : Fin 2) * 1 + 1 * 0 = 0; omega
    | ⟨1, _⟩ => show win0_6.index t (1 : Fin 2) * 512 + 1 * k'.val = k'.val; omega
  have hc : colOf (((cfg0.win 7).blk t).view.emb (ix2 p k)) = k := Fin.ext (by
    show win0_7.index t (1 : Fin 2) * 512 + 1 * k.val = k.val; omega)
  unfold layer1
  simp only [hA, hS, hWl, hWr, hbl, hlw, hlb, hc]

/-- An index of the output array is in point `t`'s block iff each coordinate is in the block's range on its axis. -/
theorem mem_blk0 (t : Fin cfg0.N) (i : S50000x512.Idx) :
    i ∈ ((cfg0.win 7).blk t).view.set ↔ ∀ a : Fin 2, win0_7.index t a * S1000x512.size a ≤ (i a).val ∧ (i a).val < win0_7.index t a * S1000x512.size a + S1000x512.size a := by
  show i ∈ ((View.whole main_v30).slice (win0_7.rect t)).set ↔ _
  rw [View.set_slice_whole, Rect.mem_set_unit]
  exact Iff.rfl

/-- The fifty blocks of 1000 rows tile the 50000 rows: row r is in the block of point r / 1000. -/
theorem cover0 (i : S50000x512.Idx) : ∃ t : Fin cfg0.N, (cfg0.win 7).flush t = true ∧ i ∈ ((cfg0.win 7).blk t).view.set := by
  have hi0 : (i 0).val < 50000 := (i 0).isLt
  have hi1 : (i 1).val < 512 := (i 1).isLt
  have hN : grid0.N = 50 := N_0
  let t : Fin cfg0.N := ⟨(i 0).val / 1000, by show (i 0).val / 1000 < grid0.N; omega⟩
  obtain ⟨e70, e71, -⟩ := idx_facts0 t
  have ht : t.val = (i 0).val / 1000 := rfl
  refine ⟨t, flush0_7 t, ?_⟩
  rw [mem_blk0]
  intro a
  match a with
  | ⟨0, _⟩ => show win0_7.index t (0 : Fin 2) * 1000 ≤ (i 0).val ∧ (i 0).val < win0_7.index t (0 : Fin 2) * 1000 + 1000; omega
  | ⟨1, _⟩ => show win0_7.index t (1 : Fin 2) * 512 ≤ (i 1).val ∧ (i 1).val < win0_7.index t (1 : Fin 2) * 512 + 512; omega

/-- THE OUTPUT ARRAY after region 0: the layer's whole-array function of the seven arrays the region found. -/
theorem final0 (c : Dev nD) :
    (dat0 V c).arrAt 7 cfg0.N
      = layer1 (V c main_v24) (V c main_arg0) (V c main_v25) (V c main_v26) (V c main_v27) (V c main_v28) (V c main_v29) :=
  (dat0 V c).arrAt_eq_of_cover 7 _ (fun t _ => flushed0 V c t) (cover0)

/-! ## Region 1 -/

/-- The printed index maps of region 1, decided once over its fifty grid points: the two row-tiled inputs move with
    the output's block row, which is the point's number; every other block index is zero. -/
theorem idx_facts1 : ∀ t : Fin cfg1.N,
      win1_7.index t (0 : Fin 2) = t.val ∧ win1_7.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The second layer as one function of whole arrays (no clamp). -/
def layer2 (A S : S50000x512.Idx → EReal) (Wl Wr : S512x512.Idx → EReal) (bl lnw lnb : S1x512.Idx → EReal) :
    S50000x512.Idx → EReal := fun i =>
  row2 (fun j => A (ix2 (rowOf i) j)) (fun j => S (ix2 (rowOf i) j)) (fun j k => Wl (ix2 j k)) (fun j k => Wr (ix2 j k))
    (fun k => bl (ix2 (0 : Fin 1) k)) (fun k => lnw (ix2 (0 : Fin 1) k)) (fun k => lnb (ix2 (0 : Fin 1) k)) (colOf i)

/-- WHAT POINT `t` WRITES BACK is block `t` of the layer's whole-array function of the arrays as the region finds them. -/
theorem flushed1 (c : Dev nD) (t : Fin cfg1.N) :
    (dat1 V c).flushed 7 t = ((cfg1.win 7).blk t).view.read (Elt Ideal)
      (layer2 (V c main_v42) (V c main_v30) (V c main_v43) (V c main_v44) (V c main_v45) (V c main_v46) (V c main_v47)) := by
  show (cfg1.win 7).cut (grid1.coords t) ((dat1 V c).after 7 t) = _
  rw [after1_7]
  unfold out1_7
  rw [View.canon_unit_zero hz]
  simp only [View.ld_unit_zero (S := S1000x512) hz, View.ld_unit_zero (S := S512x512) hz, View.ld_unit_zero (S := S1x512) hz]
  obtain ⟨e70, e71, e00, e01, e10, e11, e20, e21, e30, e31, e40, e41, e50, e51, e60, e61⟩ := idx_facts1 t
  funext y
  obtain ⟨p, k, rfl⟩ : ∃ (p : Fin 1000) (k : Fin 512), y = ix2 p k := ⟨y 0, y 1, eq_ix2 y⟩
  refine (Cert.KernelIdeal.Block.pay1_at (iblk1 V c 0 t) (iblk1 V c 1 t) (iblk1 V c 2 t) (iblk1 V c 3 t) (iblk1 V c 4 t) (iblk1 V c 5 t) (iblk1 V c 6 t) p k).trans ?_
  show _ = layer2 (V c main_v42) (V c main_v30) (V c main_v43) (V c main_v44) (V c main_v45) (V c main_v46) (V c main_v47) (((cfg1.win 7).blk t).view.emb (ix2 p k))
  have hp : p.val < 1000 := p.isLt
  have hk : k.val < 512 := k.isLt
  have hA : ∀ j : Fin 512, iblk1 V c 0 t (ix2 p j) = V c main_v42 (ix2 (rowOf (((cfg1.win 7).blk t).view.emb (ix2 p k))) j) := fun j => by
    show V c main_v42 (((cfg1.win 0).blk t).view.emb (ix2 p j)) = _
    refine congrArg (V c main_v42) (funext fun a => Fin.ext ?_)
    match a with
    | ⟨0, _⟩ => show win1_0.index t (0 : Fin 2) * 1000 + 1 * p.val = win1_7.index t (0 : Fin 2) * 1000 + 1 * p.val; omega
    | ⟨1, _⟩ => show win1_0.index t (1 : Fin 2) * 512 + 1 * j.val = j.val; omega
  have hS : ∀ j : Fin 512, iblk1 V c 1 t (ix2 p j) = V c main_v30 (ix2 (rowOf (((cfg1.win 7).blk t).view.emb (ix2 p k))) j) := fun j => by
    show V c main_v30 (((cfg1.win 1).blk t).view.emb (ix2 p j)) = _
    refine congrArg (V c main_v30) (funext fun a => Fin.ext ?_)
    match a with
    | ⟨0, _⟩ => show win1_1.index t (0 : Fin 2) * 1000 + 1 * p.val = win1_7.index t (0 : Fin 2) * 1000 + 1 * p.val; omega
    | ⟨1, _⟩ => show win1_1.index t (1 : Fin 2) * 512 + 1 * j.val = j.val; omega
  have hWl : ∀ (j k' : Fin 512), iblk1 V c 2 t (ix2 j k') = V c main_v43 (ix2 j k') := fun j k' => by
    show V c main_v43 (((cfg1.win 2).blk t).view.emb (ix2 j k')) = _
    refine congrArg (V c main_v43) (funext fun a => Fin.ext ?_)
    match a with
    | ⟨0, _⟩ => show win1_2.index t (0 : Fin 2) * 512 + 1 * j.val = j.val; omega
    | ⟨1, _⟩ => show win1_2.index t (1 : Fin 2) * 512 + 1 * k'.val = k'.val; omega
  have hWr : ∀ (j k' : Fin 512), iblk1 V c 3 t (ix2 j k') = V c main_v44 (ix2 j k') := fun j k' => by
    show V c main_v44 (((cfg1.win 3).blk t).view.emb (ix2 j k')) = _
    refine congrArg (V c main_v44) (funext fun a => Fin.ext ?_)
    match a with
    | ⟨0, _⟩ => show win1_3.index t (0 : Fin 2) * 512 + 1 * j.val = j.val; omega
    | ⟨1, _⟩ => show win1_3.index t (1 : Fin 2) * 512 + 1 * k'.val = k'.val; omega
  have hbl : ∀ k' : Fin 512, iblk1 V c 4 t (ix2 (0 : Fin 1) k') = V c main_v45 (ix2 (0 : Fin 1) k') := fun k' => by
    show V c main_v45 (((cfg1.win 4).blk t).view.emb (ix2 (0 : Fin 1) k')) = _
    refine congrArg (V c main_v45) (funext fun a => Fin.ext ?_)
    match a with
    | ⟨0, _⟩ => show win1_4.index t (0 : Fin 2) * 1 + 1 * 0 = 0; omega
    | ⟨1, _⟩ => show win1_4.index t (1 : Fin 2) * 512 + 1 * k'.val = k'.val; omega
  have hlw : ∀ k' : Fin 512, iblk1 V c 5 t (ix2 (0 : Fin 1) k') = V c main_v46 (ix2 (0 : Fin 1) k') := fun k' => by
    show V c main_v46 (((cfg1.win 5).blk t).view.emb (ix2 (0 : Fin 1) k')) = _
    refine congrArg (V c main_v46) (funext fun a => Fin.ext ?_)
    match a with
    | ⟨0, _⟩ => show win1_5.index t (0 : Fin 2) * 1 + 1 * 0 = 0; omega
    | ⟨1, _⟩ => show win1_5.index t (1 : Fin 2) * 512 + 1 * k'.val = k'.val; omega
  have hlb : ∀ k' : Fin 512, iblk1 V c 6 t (ix2 (0 : Fin 1) k') = V c main_v47 (ix2 (0 : Fin 1) k') := fun k' => by
    show V c main_v47 (((cfg1.win 6).blk t).view.emb (ix2 (0 : Fin 1) k')) = _
    refine congrArg (V c main_v47) (funext fun a => Fin.ext ?_)
    match a with
    | ⟨0, _⟩ => show win1_6.index t (0 : Fin 2) * 1 + 1 * 0 = 0; omega
    | ⟨1, _⟩ => show win1_6.index t (1 : Fin 2) * 512 + 1 * k'.val = k'.val; omega
  have hc : colOf (((cfg1.win 7).blk t).view.emb (ix2 p k)) = k := Fin.ext (by
    show win1_7.index t (1 : Fin 2) * 512 + 1 * k.val = k.val; omega)
  unfold layer2
  simp only [hA, hS, hWl, hWr, hbl, hlw, hlb, hc]

/-- An index of the output array is in point `t`'s block iff each coordinate is in the block's range on its axis. -/
theorem mem_blk1 (t : Fin cfg1.N) (i : S50000x512.Idx) :
    i ∈ ((cfg1.win 7).blk t).view.set ↔ ∀ a : Fin 2, win1_7.index t a * S1000x512.size a ≤ (i a).val ∧ (i a).val < win1_7.index t a * S1000x512.size a + S1000x512.size a := by
  show i ∈ ((View.whole main_v48).slice (win1_7.rect t)).set ↔ _
  rw [View.set_slice_whole, Rect.mem_set_unit]
  exact Iff.rfl

/-- The fifty blocks of 1000 rows tile the 50000 rows: row r is in the block of point r / 1000. -/
theorem cover1 (i : S50000x512.Idx) : ∃ t : Fin cfg1.N, (cfg1.win 7).flush t = true ∧ i ∈ ((cfg1.win 7).blk t).view.set := by
  have hi0 : (i 0).val < 50000 := (i 0).isLt
  have hi1 : (i 1).val < 512 := (i 1).isLt
  have hN : grid1.N = 50 := N_1
  let t : Fin cfg1.N := ⟨(i 0).val / 1000, by show (i 0).val / 1000 < grid1.N; omega⟩
  obtain ⟨e70, e71, -⟩ := idx_facts1 t
  have ht : t.val = (i 0).val / 1000 := rfl
  refine ⟨t, flush1_7 t, ?_⟩
  rw [mem_blk1]
  intro a
  match a with
  | ⟨0, _⟩ => show win1_7.index t (0 : Fin 2) * 1000 ≤ (i 0).val ∧ (i 0).val < win1_7.index t (0 : Fin 2) * 1000 + 1000; omega
  | ⟨1, _⟩ => show win1_7.index t (1 : Fin 2) * 512 ≤ (i 1).val ∧ (i 1).val < win1_7.index t (1 : Fin 2) * 512 + 512; omega

/-- THE OUTPUT ARRAY after region 1: the layer's whole-array function of the seven arrays the region found. -/
theorem final1 (c : Dev nD) :
    (dat1 V c).arrAt 7 cfg1.N
      = layer2 (V c main_v42) (V c main_v30) (V c main_v43) (V c main_v44) (V c main_v45) (V c main_v46) (V c main_v47) :=
  (dat1 V c).arrAt_eq_of_cover 7 _ (fun t _ => flushed1 V c t) (cover1)

end Cert.KernelIdeal.Arr

end
-- ==== Proof.KernelHost.lean ====
/-
  The idealized kernel's result as one function of the twelve argument arrays.

  Before each fused layer the host computes that layer's operands. The mean aggregation of a feature array `feat`
  over the edge list is: gather the source rows (an index below zero wraps by 50000), scatter-add them at the
  destination rows into zeros, and multiply row r by `1 / max (deg r) 1`, where `deg` is the scatter-add of ones at the
  destinations. The weight matrices are transposed and the three 512-vectors reshaped to 1 × 512 rows.
  The first layer's output `H` is region 0's output array; the host then aggregates `H` the same way, and the
  second layer's output — the program's result — is region 1's output array.
-/
import proofs.«123757_j85555748536460_1_alg».proof.Proof.Gen.KernelIdeal.Frame
import proofs.«123757_j85555748536460_1_alg».proof.Proof.KernelRun
import proofs.«123757_j85555748536460_1_alg».proof.Proof.KernelArray
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.HostVal

open Cert.KernelIdeal Cert.KernelIdeal.Gen Cert.KernelIdeal.Arr
open Idealize.ShloMosaic Idealize.ShloMosaic.TcCoe Idealize.SL.Sem Idealize.ShloMosaic.StableHlo

/-- A float array of shape `s` at the ideal instance. -/
abbrev CF (s : Shape) := (⟨s, .f32⟩ : BufTy).Contents (Elt Ideal)
/-- A 32-bit integer array of shape `s`. -/
abbrev CI (s : Shape) := (⟨s, .i32⟩ : BufTy).Contents (Elt Ideal)

/-! ## The host's pieces -/

/-- The edges' source nodes: row 0 of the edge list. -/
def srcIdx (x1 : CI S2x400000) : CI S400000 :=
  shapeCast S400000 (extractStridedSlice S1x400000 ![0, 0] x1 slices_S2x400000_S1x400000_0_0) shapeCasts_S1x400000_S400000
/-- The edges' destination nodes: row 1 of the edge list. -/
def dstIdx (x1 : CI S2x400000) : CI S400000 :=
  shapeCast S400000 (extractStridedSlice S1x400000 ![1, 0] x1 slices_S2x400000_S1x400000_1_0) shapeCasts_S1x400000_S400000
/-- The in-degree of every node: ones scatter-added at the destinations. -/
def degree (x1 : CI S2x400000) : CF S50000 :=
  Host.scatterAdd scatter_S50000_S400000x1_S400000_n_0_0_1
    (broadcastInDim S50000 ![] bcast_S_S50000 (constant (F := Ideal) S_ .f32 0x00000000#32))
    (broadcastInDim S400000x1 ![0] bcast_S400000_S400000x1_0 (dstIdx x1))
    (broadcastInDim S400000 ![] bcast_S_S400000 (constant (F := Ideal) S_ .f32 0x3F800000#32))
/-- The in-degree clamped below at one. -/
def degClamped (x1 : CI S2x400000) : CF S50000 :=
  maximumf (F := Ideal) (φ := .f32) (degree x1) (broadcastInDim S50000 ![] bcast_S_S50000 (constant (F := Ideal) S_ .f32 0x3F800000#32))
/-- `1 / max (deg r) 1` as a column. -/
def invDeg (x1 : CI S2x400000) : CF S50000x1 :=
  broadcastInDim S50000x1 ![0] bcast_S50000_S50000x1_0
    (Host.divf (broadcastInDim S50000 ![] bcast_S_S50000 (constant (F := Ideal) S_ .f32 0x3F800000#32)) (degClamped x1))
/-- The sum over incoming edges of the source rows of `feat`: gather (negative sources wrapped), scatter-add at the destinations. -/
def neighbourSum (feat : CF S50000x512) (src dst : CI S400000) : CF S50000x512 :=
  Host.scatterAdd scatter_S50000x512_S400000x1_S400000x512_1_0_0_1
    (broadcastInDim S50000x512 ![] bcast_S_S50000x512 (constant (F := Ideal) S_ .f32 0x00000000#32))
    (broadcastInDim S400000x1 ![0] bcast_S400000_S400000x1_0 dst)
    (Host.gather gather_S50000x512_S400000x1_S400000x512_1_0_n_n_0_1_1512 feat
      (broadcastInDim S400000x1 ![0] bcast_S400000_S400000x1_0
        (select (cmpi .slt src (broadcastInDim S400000 ![] bcast_S_S400000 (constantI S_ 32 0#32)))
          (addi src (broadcastInDim S400000 ![] bcast_S_S400000 (constantI S_ 32 50000#32))) src)))
/-- The kernel program's mean aggregation: the neighbour sum TIMES the inverse clamped degree of the row. -/
def aggK (feat : CF S50000x512) (src dst : CI S400000) (inv : CF S50000x1) : CF S50000x512 :=
  mulf (F := Ideal) (φ := .f32) (neighbourSum feat src dst) (broadcastInDim S50000x512 ![0, 1] bcast_S50000x1_S50000x512_0_1 inv)
/-- A weight matrix transposed. -/
abbrev tr (w : CF S512x512) : CF S512x512 := transpose S512x512 [1, 0] w transposes_S512x512_S512x512_1_0
/-- A 512-vector as a 1 × 512 row. -/
abbrev asRow (v : CF S512) : CF S1x512 := shapeCast S1x512 v shapeCasts_S512_S1x512

/-- The first layer's output. -/
def H1 (x0 : CF S50000x512) (x1 : CI S2x400000) (x2 : CF S512x512) (x3 : CF S512) (x4 : CF S512x512) (x8 x9 : CF S512) : CF S50000x512 :=
  layer1 (aggK x0 (srcIdx x1) (dstIdx x1) (invDeg x1)) x0 (tr x2) (tr x4) (asRow x3) (asRow x8) (asRow x9)
/-- The program's result: the second layer on the aggregated first-layer output and the first-layer output. -/
def kernelOut (x0 : CF S50000x512) (x1 : CI S2x400000) (x2 : CF S512x512) (x3 : CF S512) (x4 x5 : CF S512x512) (x6 : CF S512)
    (x7 : CF S512x512) (x8 x9 x10 x11 : CF S512) : CF S50000x512 :=
  layer2 (aggK (H1 x0 x1 x2 x3 x4 x8 x9) (srcIdx x1) (dstIdx x1) (invDeg x1)) (H1 x0 x1 x2 x3 x4 x8 x9) (tr x5) (tr x7) (asRow x6) (asRow x10) (asRow x11)

/-! ## The buffers at each region's entry -/

variable (m : (ℓ : Loc nD τ sig) → Buf (Elt Ideal) ℓ) (ρ : Dev nD → PrngReg)

section Entry0
variable (c : Dev nD)

set_option maxHeartbeats 8000000 in
theorem e0_agg : V1 m ρ c main_v24 = aggK (m ((c : Thread nD τ).loc main_arg0)) (srcIdx (m ((c : Thread nD τ).loc main_arg1))) (dstIdx (m ((c : Thread nD τ).loc main_arg1))) (invDeg (m ((c : Thread nD τ).loc main_arg1))) := by
  show StableHlo.after hostOps0 (W0 m ρ c) (Proc.devRef .tc main_v24) = _
  after_results_simp <;> rfl
set_option maxHeartbeats 8000000 in
theorem e0_x : V1 m ρ c main_arg0 = m ((c : Thread nD τ).loc main_arg0) := by
  show StableHlo.after hostOps0 (W0 m ρ c) (Proc.devRef .tc main_arg0) = _
  after_results_simp <;> rfl
set_option maxHeartbeats 8000000 in
theorem e0_wl : V1 m ρ c main_v25 = tr (m ((c : Thread nD τ).loc main_arg2)) := by
  show StableHlo.after hostOps0 (W0 m ρ c) (Proc.devRef .tc main_v25) = _
  after_results_simp <;> rfl
set_option maxHeartbeats 8000000 in
theorem e0_wr : V1 m ρ c main_v26 = tr (m ((c : Thread nD τ).loc main_arg4)) := by
  show StableHlo.after hostOps0 (W0 m ρ c) (Proc.devRef .tc main_v26) = _
  after_results_simp <;> rfl
set_option maxHeartbeats 8000000 in
theorem e0_bl : V1 m ρ c main_v27 = asRow (m ((c : Thread nD τ).loc main_arg3)) := by
  show StableHlo.after hostOps0 (W0 m ρ c) (Proc.devRef .tc main_v27) = _
  after_results_simp <;> rfl
set_option maxHeartbeats 8000000 in
theorem e0_lw : V1 m ρ c main_v28 = asRow (m ((c : Thread nD τ).loc main_arg8)) := by
  show StableHlo.after hostOps0 (W0 m ρ c) (Proc.devRef .tc main_v28) = _
  after_results_simp <;> rfl
set_option maxHeartbeats 8000000 in
theorem e0_lb : V1 m ρ c main_v29 = asRow (m ((c : Thread nD τ).loc main_arg9)) := by
  show StableHlo.after hostOps0 (W0 m ρ c) (Proc.devRef .tc main_v29) = _
  after_results_simp <;> rfl
set_option maxHeartbeats 8000000 in
theorem e0_src : W1 m ρ c (Proc.devRef .tc main_v1) = srcIdx (m ((c : Thread nD τ).loc main_arg1)) := by
  show StableHlo.after hostOps0 (W0 m ρ c) (Proc.devRef .tc main_v1) = _
  after_results_simp <;> rfl
set_option maxHeartbeats 8000000 in
theorem e0_dst : W1 m ρ c (Proc.devRef .tc main_v3) = dstIdx (m ((c : Thread nD τ).loc main_arg1)) := by
  show StableHlo.after hostOps0 (W0 m ρ c) (Proc.devRef .tc main_v3) = _
  after_results_simp <;> rfl
set_option maxHeartbeats 8000000 in
theorem e0_inv : W1 m ρ c (Proc.devRef .tc main_v12) = invDeg (m ((c : Thread nD τ).loc main_arg1)) := by
  show StableHlo.after hostOps0 (W0 m ρ c) (Proc.devRef .tc main_v12) = _
  after_results_simp <;> rfl
set_option maxHeartbeats 8000000 in
theorem e0_arg (b : Ref sig .tc) (hb : b = main_arg5 ∨ b = main_arg6 ∨ b = main_arg7 ∨ b = main_arg10 ∨ b = main_arg11) :
    W1 m ρ c (Proc.devRef .tc b) = m ((c : Thread nD τ).loc b) := by
  rcases hb with rfl | rfl | rfl | rfl | rfl <;>
  · show StableHlo.after hostOps0 (W0 m ρ c) (Proc.devRef .tc _) = _
    after_results_simp <;> rfl

/-- The first layer's output array, after region 0. -/
theorem out0 : W2 m ρ c (Proc.devRef .tc main_v30)
    = H1 (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg8)) (m ((c : Thread nD τ).loc main_arg9)) := by
  refine (W2_arr m ρ c 7).trans ?_
  rw [final0 (V1 m ρ) c, e0_agg, e0_x, e0_wl, e0_wr, e0_bl, e0_lw, e0_lb]
  rfl

end Entry0

section Entry1
variable (c : Dev nD)

/-- What region 0 does not write it leaves as it found it. -/
theorem keep (b : Ref sig .tc) (hb : ∀ w, Pipeline.arrRef spec0 w ≠ b) : W2 m ρ c (Proc.devRef .tc b) = W1 m ρ c (Proc.devRef .tc b) :=
  W2_of_ne m ρ c b hb

set_option maxHeartbeats 8000000 in
theorem e1_agg : V3 m ρ c main_v42 = aggK (W2 m ρ c (Proc.devRef .tc main_v30)) (W2 m ρ c (Proc.devRef .tc main_v1)) (W2 m ρ c (Proc.devRef .tc main_v3)) (W2 m ρ c (Proc.devRef .tc main_v12)) := by
  show StableHlo.after hostOps1 (W2 m ρ c) (Proc.devRef .tc main_v42) = _
  after_results_simp <;> rfl
set_option maxHeartbeats 8000000 in
theorem e1_h : V3 m ρ c main_v30 = W2 m ρ c (Proc.devRef .tc main_v30) := by
  show StableHlo.after hostOps1 (W2 m ρ c) (Proc.devRef .tc main_v30) = _
  after_results_simp <;> rfl
set_option maxHeartbeats 8000000 in
theorem e1_wl : V3 m ρ c main_v43 = tr (W2 m ρ c (Proc.devRef .tc main_arg5)) := by
  show StableHlo.after hostOps1 (W2 m ρ c) (Proc.devRef .tc main_v43) = _
  after_results_simp <;> rfl
set_option maxHeartbeats 8000000 in
theorem e1_wr : V3 m ρ c main_v44 = tr (W2 m ρ c (Proc.devRef .tc main_arg7)) := by
  show StableHlo.after hostOps1 (W2 m ρ c) (Proc.devRef .tc main_v44) = _
  after_results_simp <;> rfl
set_option maxHeartbeats 8000000 in
theorem e1_bl : V3 m ρ c main_v45 = asRow (W2 m ρ c (Proc.devRef .tc main_arg6)) := by
  show StableHlo.after hostOps1 (W2 m ρ c) (Proc.devRef .tc main_v45) = _
  after_results_simp <;> rfl
set_option maxHeartbeats 8000000 in
theorem e1_lw : V3 m ρ c main_v46 = asRow (W2 m ρ c (Proc.devRef .tc main_arg10)) := by
  show StableHlo.after hostOps1 (W2 m ρ c) (Proc.devRef .tc main_v46) = _
  after_results_simp <;> rfl
set_option maxHeartbeats 8000000 in
theorem e1_lb : V3 m ρ c main_v47 = asRow (W2 m ρ c (Proc.devRef .tc main_arg11)) := by
  show StableHlo.after hostOps1 (W2 m ρ c) (Proc.devRef .tc main_v47) = _
  after_results_simp <;> rfl

/-- THE RESULT: the result buffer at the last boundary is `kernelOut` of the launch contents of the arguments. -/
theorem result_value : W4 m ρ c (Proc.devRef .tc main_v48)
    = kernelOut (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11)) := by
  refine (Cert.KernelIdeal.ValueRun.result_eq m ρ c).trans ?_
  rw [final1 (V3 m ρ) c, e1_agg, e1_h, e1_wl, e1_wr, e1_bl, e1_lw, e1_lb, out0,
    keep m ρ c main_v1 (by decide), keep m ρ c main_v3 (by decide), keep m ρ c main_v12 (by decide),
    keep m ρ c main_arg5 (by decide), keep m ρ c main_arg6 (by decide), keep m ρ c main_arg7 (by decide),
    keep m ρ c main_arg10 (by decide), keep m ρ c main_arg11 (by decide),
    e0_src, e0_dst, e0_inv,
    e0_arg m ρ c main_arg5 (.inl rfl), e0_arg m ρ c main_arg6 (.inr (.inl rfl)), e0_arg m ρ c main_arg7 (.inr (.inr (.inl rfl))),
    e0_arg m ρ c main_arg10 (.inr (.inr (.inr (.inl rfl)))), e0_arg m ρ c main_arg11 (.inr (.inr (.inr (.inr rfl))))]
  rfl

end Entry1

end Cert.KernelIdeal.HostVal

end
-- ==== Proof.KernelHostIdx.lean ====
/-
  The host's pieces of the kernel program read at an index: a vector broadcast to a column and along the rows, the mean
  aggregation as the neighbour sum times one over the clamped degree, a transposed weight matrix, a vector as a row.
-/
import proofs.«123757_j85555748536460_1_alg».proof.Proof.KernelHost
import Idealize.ShloMosaic.Lib.Pipeline.Value
import Idealize.ShloMosaic.Lib.ValueIdx
import Idealize.ShloMosaic.Lib.ValueLayout

set_option maxRecDepth 16384

noncomputable section

namespace Cert.KernelIdeal.HostVal

open Cert.KernelIdeal Cert.KernelIdeal.Gen
open Idealize.ShloMosaic Idealize.ShloMosaic.TcCoe Idealize.SL.Sem Idealize.ShloMosaic.ValueIdx

/-- A vector broadcast to a column and then along the rows reads, at (r, k), its entry r. -/
theorem col_bcast_at (y : CF S50000) (r : Fin 50000) (k : Fin 512) :
    broadcastInDim S50000x512 ![0, 1] bcast_S50000x1_S50000x512_0_1
      (broadcastInDim S50000x1 ![0] bcast_S50000_S50000x1_0 y) (ix2 r k) = y (ix1 r) := by
  refine (broadcastInDim_apply _ bcast_S50000x1_S50000x512_0_1 _ (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])).trans ?_
  exact broadcastInDim_apply _ bcast_S50000_S50000x1_0 y (ix2 r (0 : Fin 1)) (ix1 r) (fun a => match a with
    | ⟨0, _⟩ => by show r.val = if (50000 : Nat) = 1 then 0 else r.val; rw [if_neg (by decide)])

/-- The splat of the f32 word of one, read at any node. -/
theorem ones_at (r : Fin 50000) :
    (broadcastInDim S50000 ![] bcast_S_S50000 (constant (F := Ideal) S_ .f32 0x3F800000#32)) (ix1 r) = Ideal.ofBits .f32 0x3F800000#32 := rfl

/-- The host's quotient of two vectors, read at a node. -/
theorem hostDivf_at (A B : CF S50000) (r : Fin 50000) :
    Host.divf (F := Ideal) (φ := .f32) A B (ix1 r) = Ideal.div (A (ix1 r)) (B (ix1 r)) := rfl

/-- The clamped degree at r. -/
theorem degClamped_at (x1 : CI S2x400000) (r : Fin 50000) :
    degClamped x1 (ix1 r) = max (degree x1 (ix1 r)) (Ideal.ofBits .f32 0x3F800000#32) := by
  refine (show degClamped x1 (ix1 r) = max (degree x1 (ix1 r))
    ((broadcastInDim S50000 ![] bcast_S_S50000 (constant (F := Ideal) S_ .f32 0x3F800000#32)) (ix1 r)) from rfl).trans ?_
  rw [ones_at]

/-- The kernel program's aggregation at (r, k): the neighbour sum there times one over the clamped degree of row r. -/
theorem aggK_at (feat : CF S50000x512) (x1 : CI S2x400000) (r : Fin 50000) (k : Fin 512) :
    aggK feat (srcIdx x1) (dstIdx x1) (invDeg x1) (ix2 r k)
      = neighbourSum feat (srcIdx x1) (dstIdx x1) (ix2 r k)
          * Ideal.div (Ideal.ofBits .f32 0x3F800000#32) (max (degree x1 (ix1 r)) (Ideal.ofBits .f32 0x3F800000#32)) := by
  unfold aggK invDeg
  rw [mulf_apply, col_bcast_at]
  refine congrArg (neighbourSum feat (srcIdx x1) (dstIdx x1) (ix2 r k) * ·) ?_
  rw [hostDivf_at, ones_at, degClamped_at]

/-- A transposed weight matrix read at (j, k) is the matrix at (k, j). -/
theorem tr_at (w : CF S512x512) (j k : Fin 512) : tr w (ix2 j k) = w (ix2 k j) :=
  transpose_ix2_apply w transposes_S512x512_S512x512_1_0 j k

/-- A vector as a 1 × 512 row read at (0, k) is the vector at k. -/
theorem asRow_at (v : CF S512) (k : Fin 512) : asRow v (ix2 (0 : Fin 1) k) = v (ix1 k) :=
  shapeCast_a_1a_apply v shapeCasts_S512_S1x512 (0 : Fin 1) k

end Cert.KernelIdeal.HostVal

end
-- ==== Proof.RefRead.lean ====
/-
  The reference, one layer at a time, entry by entry.

  The reference computes each layer with whole-array host operations: two `dot_general`s against the transposed weight
  matrices, the bias broadcast along the rows, two row sums divided by 512 for the mean and the variance, `rsqrt`, the
  LayerNorm scale and shift broadcast along the rows, and (first layer) a maximum with zero, then the residual. Read at
  entry (r, k) — a `dot_general` as the sum over the contracted feature, a row sum as the sum along the row, a
  broadcast or transpose at the index it copies — each layer is the row function of `RowSpec` of row r of its two
  inputs. The mean aggregation in front of each layer (`val_main_v22`, `val_main_v75`) is not opened here.
-/
import proofs.«123757_j85555748536460_1_alg».proof.Proof.Gen.ReferenceIdeal.Read
import proofs.«123757_j85555748536460_1_alg».proof.Proof.RowSpec
import Idealize.ShloMosaic.Lib.ValueIdx
import Idealize.ShloMosaic.PureOps.Ideal.Laws

noncomputable section

namespace Cert.ReferenceIdeal.RowRead

open Cert.ReferenceIdeal Cert.ReferenceIdeal.Read Idealize.ShloMosaic Idealize.ShloMosaic.ValueIdx Cert.RowSpec

/-! ## The generated index maps at an index given by its coordinates -/

theorem idx_main_v20_ix (a : Fin 50000) (u : Fin 1) : idx_main_v20 (ix2 a u) = ix1 a :=
  funext fun d => Fin.ext (by match d with | ⟨0, _⟩ => rfl)
theorem idx_main_v21_ix (a : Fin 50000) (b : Fin 512) : idx_main_v21 (ix2 a b) = ix2 a (0 : Fin 1) :=
  funext fun d => Fin.ext (by match d with | ⟨0, _⟩ => rfl | ⟨1, _⟩ => rfl)
theorem idx_main_v23_ix (a b : Fin 512) : idx_main_v23 (ix2 a b) = ix2 b a :=
  funext fun d => Fin.ext (by match d with | ⟨0, _⟩ => rfl | ⟨1, _⟩ => rfl)
theorem lidx_main_v24_ix (a : Fin 50000) (b : Fin 512) (k : Fin 512) : lidx_main_v24 (ix2 a b) k = ix2 a k :=
  funext fun d => Fin.ext (by match d with | ⟨0, _⟩ => rfl | ⟨1, _⟩ => rfl)
theorem ridx_main_v24_ix (a : Fin 50000) (b : Fin 512) (k : Fin 512) : ridx_main_v24 (ix2 a b) k = ix2 k b :=
  funext fun d => Fin.ext (by match d with | ⟨0, _⟩ => rfl | ⟨1, _⟩ => rfl)
theorem idx_main_v25_ix (u : Fin 1) (b : Fin 512) : idx_main_v25 (ix2 u b) = ix1 b :=
  funext fun d => Fin.ext (by match d with | ⟨0, _⟩ => rfl)
theorem idx_main_v26_ix (a : Fin 50000) (b : Fin 512) : idx_main_v26 (ix2 a b) = ix2 (0 : Fin 1) b :=
  funext fun d => Fin.ext (by match d with | ⟨0, _⟩ => rfl | ⟨1, _⟩ => rfl)
theorem idx_main_v28_ix (a b : Fin 512) : idx_main_v28 (ix2 a b) = ix2 b a :=
  funext fun d => Fin.ext (by match d with | ⟨0, _⟩ => rfl | ⟨1, _⟩ => rfl)
theorem lidx_main_v29_ix (a : Fin 50000) (b : Fin 512) (k : Fin 512) : lidx_main_v29 (ix2 a b) k = ix2 a k :=
  funext fun d => Fin.ext (by match d with | ⟨0, _⟩ => rfl | ⟨1, _⟩ => rfl)
theorem ridx_main_v29_ix (a : Fin 50000) (b : Fin 512) (k : Fin 512) : ridx_main_v29 (ix2 a b) k = ix2 k b :=
  funext fun d => Fin.ext (by match d with | ⟨0, _⟩ => rfl | ⟨1, _⟩ => rfl)
theorem idx_main_v31_ix (a : Fin 50000) (k : Fin 512) : idx_main_v31 (ix1 a) k = ix2 a k :=
  funext fun d => Fin.ext (by match d with | ⟨0, _⟩ => rfl | ⟨1, _⟩ => rfl)
theorem idx_main_v32_ix (a : Fin 50000) (u : Fin 1) : idx_main_v32 (ix2 a u) = ix1 a :=
  funext fun d => Fin.ext (by match d with | ⟨0, _⟩ => rfl)
theorem idx_main_v35_ix (a : Fin 50000) (b : Fin 512) : idx_main_v35 (ix2 a b) = ix2 a (0 : Fin 1) :=
  funext fun d => Fin.ext (by match d with | ⟨0, _⟩ => rfl | ⟨1, _⟩ => rfl)
theorem idx_main_v38_ix (a : Fin 50000) (k : Fin 512) : idx_main_v38 (ix1 a) k = ix2 a k :=
  funext fun d => Fin.ext (by match d with | ⟨0, _⟩ => rfl | ⟨1, _⟩ => rfl)
theorem idx_main_v39_ix (a : Fin 50000) (u : Fin 1) : idx_main_v39 (ix2 a u) = ix1 a :=
  funext fun d => Fin.ext (by match d with | ⟨0, _⟩ => rfl)
theorem idx_main_v42_ix (a : Fin 50000) (b : Fin 512) : idx_main_v42 (ix2 a b) = ix2 a (0 : Fin 1) :=
  funext fun d => Fin.ext (by match d with | ⟨0, _⟩ => rfl | ⟨1, _⟩ => rfl)
theorem idx_main_v47_ix (a : Fin 50000) (b : Fin 512) : idx_main_v47 (ix2 a b) = ix2 a (0 : Fin 1) :=
  funext fun d => Fin.ext (by match d with | ⟨0, _⟩ => rfl | ⟨1, _⟩ => rfl)
theorem idx_main_v49_ix (u : Fin 1) (b : Fin 512) : idx_main_v49 (ix2 u b) = ix1 b :=
  funext fun d => Fin.ext (by match d with | ⟨0, _⟩ => rfl)
theorem idx_main_v50_ix (a : Fin 50000) (b : Fin 512) : idx_main_v50 (ix2 a b) = ix2 (0 : Fin 1) b :=
  funext fun d => Fin.ext (by match d with | ⟨0, _⟩ => rfl | ⟨1, _⟩ => rfl)
theorem idx_main_v52_ix (u : Fin 1) (b : Fin 512) : idx_main_v52 (ix2 u b) = ix1 b :=
  funext fun d => Fin.ext (by match d with | ⟨0, _⟩ => rfl)
theorem idx_main_v53_ix (a : Fin 50000) (b : Fin 512) : idx_main_v53 (ix2 a b) = ix2 (0 : Fin 1) b :=
  funext fun d => Fin.ext (by match d with | ⟨0, _⟩ => rfl | ⟨1, _⟩ => rfl)
theorem idx_main_v73_ix (a : Fin 50000) (u : Fin 1) : idx_main_v73 (ix2 a u) = ix1 a :=
  funext fun d => Fin.ext (by match d with | ⟨0, _⟩ => rfl)
theorem idx_main_v74_ix (a : Fin 50000) (b : Fin 512) : idx_main_v74 (ix2 a b) = ix2 a (0 : Fin 1) :=
  funext fun d => Fin.ext (by match d with | ⟨0, _⟩ => rfl | ⟨1, _⟩ => rfl)
theorem idx_main_v76_ix (a b : Fin 512) : idx_main_v76 (ix2 a b) = ix2 b a :=
  funext fun d => Fin.ext (by match d with | ⟨0, _⟩ => rfl | ⟨1, _⟩ => rfl)
theorem lidx_main_v77_ix (a : Fin 50000) (b : Fin 512) (k : Fin 512) : lidx_main_v77 (ix2 a b) k = ix2 a k :=
  funext fun d => Fin.ext (by match d with | ⟨0, _⟩ => rfl | ⟨1, _⟩ => rfl)
theorem ridx_main_v77_ix (a : Fin 50000) (b : Fin 512) (k : Fin 512) : ridx_main_v77 (ix2 a b) k = ix2 k b :=
  funext fun d => Fin.ext (by match d with | ⟨0, _⟩ => rfl | ⟨1, _⟩ => rfl)
theorem idx_main_v78_ix (u : Fin 1) (b : Fin 512) : idx_main_v78 (ix2 u b) = ix1 b :=
  funext fun d => Fin.ext (by match d with | ⟨0, _⟩ => rfl)
theorem idx_main_v79_ix (a : Fin 50000) (b : Fin 512) : idx_main_v79 (ix2 a b) = ix2 (0 : Fin 1) b :=
  funext fun d => Fin.ext (by match d with | ⟨0, _⟩ => rfl | ⟨1, _⟩ => rfl)
theorem idx_main_v81_ix (a b : Fin 512) : idx_main_v81 (ix2 a b) = ix2 b a :=
  funext fun d => Fin.ext (by match d with | ⟨0, _⟩ => rfl | ⟨1, _⟩ => rfl)
theorem lidx_main_v82_ix (a : Fin 50000) (b : Fin 512) (k : Fin 512) : lidx_main_v82 (ix2 a b) k = ix2 a k :=
  funext fun d => Fin.ext (by match d with | ⟨0, _⟩ => rfl | ⟨1, _⟩ => rfl)
theorem ridx_main_v82_ix (a : Fin 50000) (b : Fin 512) (k : Fin 512) : ridx_main_v82 (ix2 a b) k = ix2 k b :=
  funext fun d => Fin.ext (by match d with | ⟨0, _⟩ => rfl | ⟨1, _⟩ => rfl)
theorem idx_main_v84_ix (a : Fin 50000) (k : Fin 512) : idx_main_v84 (ix1 a) k = ix2 a k :=
  funext fun d => Fin.ext (by match d with | ⟨0, _⟩ => rfl | ⟨1, _⟩ => rfl)
theorem idx_main_v85_ix (a : Fin 50000) (u : Fin 1) : idx_main_v85 (ix2 a u) = ix1 a :=
  funext fun d => Fin.ext (by match d with | ⟨0, _⟩ => rfl)
theorem idx_main_v88_ix (a : Fin 50000) (b : Fin 512) : idx_main_v88 (ix2 a b) = ix2 a (0 : Fin 1) :=
  funext fun d => Fin.ext (by match d with | ⟨0, _⟩ => rfl | ⟨1, _⟩ => rfl)
theorem idx_main_v91_ix (a : Fin 50000) (k : Fin 512) : idx_main_v91 (ix1 a) k = ix2 a k :=
  funext fun d => Fin.ext (by match d with | ⟨0, _⟩ => rfl | ⟨1, _⟩ => rfl)
theorem idx_main_v92_ix (a : Fin 50000) (u : Fin 1) : idx_main_v92 (ix2 a u) = ix1 a :=
  funext fun d => Fin.ext (by match d with | ⟨0, _⟩ => rfl)
theorem idx_main_v95_ix (a : Fin 50000) (b : Fin 512) : idx_main_v95 (ix2 a b) = ix2 a (0 : Fin 1) :=
  funext fun d => Fin.ext (by match d with | ⟨0, _⟩ => rfl | ⟨1, _⟩ => rfl)
theorem idx_main_v100_ix (a : Fin 50000) (b : Fin 512) : idx_main_v100 (ix2 a b) = ix2 a (0 : Fin 1) :=
  funext fun d => Fin.ext (by match d with | ⟨0, _⟩ => rfl | ⟨1, _⟩ => rfl)
theorem idx_main_v102_ix (u : Fin 1) (b : Fin 512) : idx_main_v102 (ix2 u b) = ix1 b :=
  funext fun d => Fin.ext (by match d with | ⟨0, _⟩ => rfl)
theorem idx_main_v103_ix (a : Fin 50000) (b : Fin 512) : idx_main_v103 (ix2 a b) = ix2 (0 : Fin 1) b :=
  funext fun d => Fin.ext (by match d with | ⟨0, _⟩ => rfl | ⟨1, _⟩ => rfl)
theorem idx_main_v105_ix (u : Fin 1) (b : Fin 512) : idx_main_v105 (ix2 u b) = ix1 b :=
  funext fun d => Fin.ext (by match d with | ⟨0, _⟩ => rfl)
theorem idx_main_v106_ix (a : Fin 50000) (b : Fin 512) : idx_main_v106 (ix2 a b) = ix2 (0 : Fin 1) b :=
  funext fun d => Fin.ext (by match d with | ⟨0, _⟩ => rfl | ⟨1, _⟩ => rfl)

/-! ## First layer -/

/-- The linear part of the first layer at (r, k). -/
theorem lin1_at (x0 : (⟨S50000x512, .f32⟩ : BufTy).Contents (Elt Ideal)) (x1 : (⟨S2x400000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (r : Fin 50000) (k : Fin 512) :
    val_main_v30 (F := Ideal) x0 x1 x2 x3 x4 (ix2 r k)
      = lin (fun j => val_main_v22 (F := Ideal) x0 x1 (ix2 r j)) (fun j => x0 (ix2 r j)) (fun j k' => x2 (ix2 k' j)) (fun j k' => x4 (ix2 k' j))
          (fun k' => x3 (ix1 k')) k := by
  unfold lin
  simp only [val_main_v23_apply, val_main_v24_apply, val_main_v25_apply, val_main_v26_apply, val_main_v27_apply, val_main_v28_apply, val_main_v29_apply, val_main_v30_apply, idx_main_v20_ix, idx_main_v21_ix, idx_main_v23_ix, lidx_main_v24_ix, ridx_main_v24_ix, idx_main_v25_ix, idx_main_v26_ix, idx_main_v28_ix, lidx_main_v29_ix, ridx_main_v29_ix, idx_main_v31_ix, idx_main_v32_ix, idx_main_v35_ix, idx_main_v38_ix, idx_main_v39_ix, idx_main_v42_ix, idx_main_v47_ix, idx_main_v49_ix, idx_main_v50_ix, idx_main_v52_ix, idx_main_v53_ix, idx_main_v73_ix, idx_main_v74_ix, idx_main_v76_ix, lidx_main_v77_ix, ridx_main_v77_ix, idx_main_v78_ix, idx_main_v79_ix, idx_main_v81_ix, lidx_main_v82_ix, ridx_main_v82_ix, idx_main_v84_ix, idx_main_v85_ix, idx_main_v88_ix, idx_main_v91_ix, idx_main_v92_ix, idx_main_v95_ix, idx_main_v100_ix, idx_main_v102_ix, idx_main_v103_ix, idx_main_v105_ix, idx_main_v106_ix, Ideal.addf_def, Ideal.subf_def, Ideal.mulf_def, Ideal.hostDivf_def, Ideal.maximumf_def, Ideal.hostUnary_rsqrt_def, Ideal.ofBits_def]

/-- The first layer's normalised row at (r, k), over its linear part `L`. -/
theorem norm1_at (x0 : (⟨S50000x512, .f32⟩ : BufTy).Contents (Elt Ideal)) (x1 : (⟨S2x400000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (r : Fin 50000) (k : Fin 512) :
    val_main_v48 (F := Ideal) x0 x1 x2 x3 x4 (ix2 r k)
      = ((fun k' => val_main_v30 (F := Ideal) x0 x1 x2 x3 x4 (ix2 r k')) k - mean (fun k' => val_main_v30 (F := Ideal) x0 x1 x2 x3 x4 (ix2 r k')))
        * Ideal.rsqrt (mean (fun k'' => ((fun k' => val_main_v30 (F := Ideal) x0 x1 x2 x3 x4 (ix2 r k')) k'' - mean (fun k' => val_main_v30 (F := Ideal) x0 x1 x2 x3 x4 (ix2 r k')))
            * ((fun k' => val_main_v30 (F := Ideal) x0 x1 x2 x3 x4 (ix2 r k')) k'' - mean (fun k' => val_main_v30 (F := Ideal) x0 x1 x2 x3 x4 (ix2 r k')))) + ceps) := by
  unfold mean
  simp only [val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_c_apply, val_main_c_0_apply, val_main_cst_apply, val_main_cst_1_apply, val_main_cst_2_apply, val_main_cst_3_apply, val_main_cst_4_apply, val_main_cst_5_apply, val_main_cst_6_apply, val_main_cst_7_apply, val_main_cst_8_apply, val_main_call0_cst_apply, val_main_call0_v0_apply, val_main_c_9_apply, val_main_c_10_apply, val_main_cst_11_apply, val_main_cst_12_apply, val_main_cst_13_apply, val_main_cst_14_apply, val_main_cst_15_apply, val_main_cst_16_apply, val_main_cst_17_apply, val_main_cst_18_apply, val_main_cst_19_apply, idx_main_v20_ix, idx_main_v21_ix, idx_main_v23_ix, lidx_main_v24_ix, ridx_main_v24_ix, idx_main_v25_ix, idx_main_v26_ix, idx_main_v28_ix, lidx_main_v29_ix, ridx_main_v29_ix, idx_main_v31_ix, idx_main_v32_ix, idx_main_v35_ix, idx_main_v38_ix, idx_main_v39_ix, idx_main_v42_ix, idx_main_v47_ix, idx_main_v49_ix, idx_main_v50_ix, idx_main_v52_ix, idx_main_v53_ix, idx_main_v73_ix, idx_main_v74_ix, idx_main_v76_ix, lidx_main_v77_ix, ridx_main_v77_ix, idx_main_v78_ix, idx_main_v79_ix, idx_main_v81_ix, lidx_main_v82_ix, ridx_main_v82_ix, idx_main_v84_ix, idx_main_v85_ix, idx_main_v88_ix, idx_main_v91_ix, idx_main_v92_ix, idx_main_v95_ix, idx_main_v100_ix, idx_main_v102_ix, idx_main_v103_ix, idx_main_v105_ix, idx_main_v106_ix, Ideal.addf_def, Ideal.subf_def, Ideal.mulf_def, Ideal.hostDivf_def, Ideal.maximumf_def, Ideal.hostUnary_rsqrt_def, Ideal.ofBits_def, Ideal.ofBits_zero_f32, zero_add]

/-- THE FIRST LAYER at (r, k): the row function of row r of the aggregated features and of the node features. -/
theorem layer1_at (x0 : (⟨S50000x512, .f32⟩ : BufTy).Contents (Elt Ideal)) (x1 : (⟨S2x400000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x8 : (⟨S512, .f32⟩ : BufTy).Contents (Elt Ideal)) (x9 : (⟨S512, .f32⟩ : BufTy).Contents (Elt Ideal)) (r : Fin 50000) (k : Fin 512) :
    val_main_v56 (F := Ideal) x0 x1 x2 x3 x4 x8 x9 (ix2 r k)
      = row1 (fun j => val_main_v22 (F := Ideal) x0 x1 (ix2 r j)) (fun j => x0 (ix2 r j)) (fun j k' => x2 (ix2 k' j)) (fun j k' => x4 (ix2 k' j))
          (fun k' => x3 (ix1 k')) (fun k' => x8 (ix1 k')) (fun k' => x9 (ix1 k')) k := by
  unfold row1 normed
  simp only [val_main_v49_apply, val_main_v50_apply, val_main_v51_apply, val_main_v52_apply, val_main_v53_apply, val_main_v54_apply, val_main_v55_apply, val_main_v56_apply, val_main_c_apply, val_main_c_0_apply, val_main_cst_apply, val_main_cst_1_apply, val_main_cst_2_apply, val_main_cst_3_apply, val_main_cst_4_apply, val_main_cst_5_apply, val_main_cst_6_apply, val_main_cst_7_apply, val_main_cst_8_apply, val_main_call0_cst_apply, val_main_call0_v0_apply, val_main_c_9_apply, val_main_c_10_apply, val_main_cst_11_apply, val_main_cst_12_apply, val_main_cst_13_apply, val_main_cst_14_apply, val_main_cst_15_apply, val_main_cst_16_apply, val_main_cst_17_apply, val_main_cst_18_apply, val_main_cst_19_apply, idx_main_v20_ix, idx_main_v21_ix, idx_main_v23_ix, lidx_main_v24_ix, ridx_main_v24_ix, idx_main_v25_ix, idx_main_v26_ix, idx_main_v28_ix, lidx_main_v29_ix, ridx_main_v29_ix, idx_main_v31_ix, idx_main_v32_ix, idx_main_v35_ix, idx_main_v38_ix, idx_main_v39_ix, idx_main_v42_ix, idx_main_v47_ix, idx_main_v49_ix, idx_main_v50_ix, idx_main_v52_ix, idx_main_v53_ix, idx_main_v73_ix, idx_main_v74_ix, idx_main_v76_ix, lidx_main_v77_ix, ridx_main_v77_ix, idx_main_v78_ix, idx_main_v79_ix, idx_main_v81_ix, lidx_main_v82_ix, ridx_main_v82_ix, idx_main_v84_ix, idx_main_v85_ix, idx_main_v88_ix, idx_main_v91_ix, idx_main_v92_ix, idx_main_v95_ix, idx_main_v100_ix, idx_main_v102_ix, idx_main_v103_ix, idx_main_v105_ix, idx_main_v106_ix, Ideal.addf_def, Ideal.subf_def, Ideal.mulf_def, Ideal.hostDivf_def, Ideal.maximumf_def, Ideal.hostUnary_rsqrt_def, Ideal.ofBits_def, norm1_at, lin1_at]

/-! ## Second layer -/

/-- The linear part of the second layer at (r, k). -/
theorem lin2_at (x0 : (⟨S50000x512, .f32⟩ : BufTy).Contents (Elt Ideal)) (x1 : (⟨S2x400000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512, .f32⟩ : BufTy).Contents (Elt Ideal)) (r : Fin 50000) (k : Fin 512) :
    val_main_v83 (F := Ideal) x0 x1 x2 x3 x4 x5 x6 x7 x8 x9 (ix2 r k)
      = lin (fun j => val_main_v75 (F := Ideal) x0 x1 x2 x3 x4 x8 x9 (ix2 r j)) (fun j => val_main_v56 (F := Ideal) x0 x1 x2 x3 x4 x8 x9 (ix2 r j)) (fun j k' => x5 (ix2 k' j)) (fun j k' => x7 (ix2 k' j))
          (fun k' => x6 (ix1 k')) k := by
  unfold lin
  simp only [val_main_v76_apply, val_main_v77_apply, val_main_v78_apply, val_main_v79_apply, val_main_v80_apply, val_main_v81_apply, val_main_v82_apply, val_main_v83_apply, idx_main_v20_ix, idx_main_v21_ix, idx_main_v23_ix, lidx_main_v24_ix, ridx_main_v24_ix, idx_main_v25_ix, idx_main_v26_ix, idx_main_v28_ix, lidx_main_v29_ix, ridx_main_v29_ix, idx_main_v31_ix, idx_main_v32_ix, idx_main_v35_ix, idx_main_v38_ix, idx_main_v39_ix, idx_main_v42_ix, idx_main_v47_ix, idx_main_v49_ix, idx_main_v50_ix, idx_main_v52_ix, idx_main_v53_ix, idx_main_v73_ix, idx_main_v74_ix, idx_main_v76_ix, lidx_main_v77_ix, ridx_main_v77_ix, idx_main_v78_ix, idx_main_v79_ix, idx_main_v81_ix, lidx_main_v82_ix, ridx_main_v82_ix, idx_main_v84_ix, idx_main_v85_ix, idx_main_v88_ix, idx_main_v91_ix, idx_main_v92_ix, idx_main_v95_ix, idx_main_v100_ix, idx_main_v102_ix, idx_main_v103_ix, idx_main_v105_ix, idx_main_v106_ix, Ideal.addf_def, Ideal.subf_def, Ideal.mulf_def, Ideal.hostDivf_def, Ideal.maximumf_def, Ideal.hostUnary_rsqrt_def, Ideal.ofBits_def]

/-- The second layer's normalised row at (r, k), over its linear part. -/
theorem norm2_at (x0 : (⟨S50000x512, .f32⟩ : BufTy).Contents (Elt Ideal)) (x1 : (⟨S2x400000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512, .f32⟩ : BufTy).Contents (Elt Ideal)) (r : Fin 50000) (k : Fin 512) :
    val_main_v101 (F := Ideal) x0 x1 x2 x3 x4 x5 x6 x7 x8 x9 (ix2 r k)
      = ((fun k' => val_main_v83 (F := Ideal) x0 x1 x2 x3 x4 x5 x6 x7 x8 x9 (ix2 r k')) k - mean (fun k' => val_main_v83 (F := Ideal) x0 x1 x2 x3 x4 x5 x6 x7 x8 x9 (ix2 r k')))
        * Ideal.rsqrt (mean (fun k'' => ((fun k' => val_main_v83 (F := Ideal) x0 x1 x2 x3 x4 x5 x6 x7 x8 x9 (ix2 r k')) k'' - mean (fun k' => val_main_v83 (F := Ideal) x0 x1 x2 x3 x4 x5 x6 x7 x8 x9 (ix2 r k')))
            * ((fun k' => val_main_v83 (F := Ideal) x0 x1 x2 x3 x4 x5 x6 x7 x8 x9 (ix2 r k')) k'' - mean (fun k' => val_main_v83 (F := Ideal) x0 x1 x2 x3 x4 x5 x6 x7 x8 x9 (ix2 r k')))) + ceps) := by
  unfold mean
  simp only [val_main_v84_apply, val_main_v85_apply, val_main_v86_apply, val_main_v87_apply, val_main_v88_apply, val_main_v89_apply, val_main_v90_apply, val_main_v91_apply, val_main_v92_apply, val_main_v93_apply, val_main_v94_apply, val_main_v95_apply, val_main_v96_apply, val_main_v97_apply, val_main_v98_apply, val_main_v99_apply, val_main_v100_apply, val_main_v101_apply, val_main_c_apply, val_main_c_0_apply, val_main_cst_apply, val_main_cst_1_apply, val_main_cst_2_apply, val_main_cst_3_apply, val_main_cst_4_apply, val_main_cst_5_apply, val_main_cst_6_apply, val_main_cst_7_apply, val_main_cst_8_apply, val_main_call0_cst_apply, val_main_call0_v0_apply, val_main_c_9_apply, val_main_c_10_apply, val_main_cst_11_apply, val_main_cst_12_apply, val_main_cst_13_apply, val_main_cst_14_apply, val_main_cst_15_apply, val_main_cst_16_apply, val_main_cst_17_apply, val_main_cst_18_apply, val_main_cst_19_apply, idx_main_v20_ix, idx_main_v21_ix, idx_main_v23_ix, lidx_main_v24_ix, ridx_main_v24_ix, idx_main_v25_ix, idx_main_v26_ix, idx_main_v28_ix, lidx_main_v29_ix, ridx_main_v29_ix, idx_main_v31_ix, idx_main_v32_ix, idx_main_v35_ix, idx_main_v38_ix, idx_main_v39_ix, idx_main_v42_ix, idx_main_v47_ix, idx_main_v49_ix, idx_main_v50_ix, idx_main_v52_ix, idx_main_v53_ix, idx_main_v73_ix, idx_main_v74_ix, idx_main_v76_ix, lidx_main_v77_ix, ridx_main_v77_ix, idx_main_v78_ix, idx_main_v79_ix, idx_main_v81_ix, lidx_main_v82_ix, ridx_main_v82_ix, idx_main_v84_ix, idx_main_v85_ix, idx_main_v88_ix, idx_main_v91_ix, idx_main_v92_ix, idx_main_v95_ix, idx_main_v100_ix, idx_main_v102_ix, idx_main_v103_ix, idx_main_v105_ix, idx_main_v106_ix, Ideal.addf_def, Ideal.subf_def, Ideal.mulf_def, Ideal.hostDivf_def, Ideal.maximumf_def, Ideal.hostUnary_rsqrt_def, Ideal.ofBits_def, Ideal.ofBits_zero_f32, zero_add]

/-- THE SECOND LAYER at (r, k): the row function (no clamp) of row r of the aggregated first-layer output and of the
    first-layer output. -/
theorem layer2_at (x0 : (⟨S50000x512, .f32⟩ : BufTy).Contents (Elt Ideal)) (x1 : (⟨S2x400000, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512x512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512, .f32⟩ : BufTy).Contents (Elt Ideal)) (x10 : (⟨S512, .f32⟩ : BufTy).Contents (Elt Ideal)) (x11 : (⟨S512, .f32⟩ : BufTy).Contents (Elt Ideal)) (r : Fin 50000) (k : Fin 512) :
    val_main_v108 (F := Ideal) x0 x1 x2 x3 x4 x5 x6 x7 x8 x9 x10 x11 (ix2 r k)
      = row2 (fun j => val_main_v75 (F := Ideal) x0 x1 x2 x3 x4 x8 x9 (ix2 r j)) (fun j => val_main_v56 (F := Ideal) x0 x1 x2 x3 x4 x8 x9 (ix2 r j)) (fun j k' => x5 (ix2 k' j)) (fun j k' => x7 (ix2 k' j))
          (fun k' => x6 (ix1 k')) (fun k' => x10 (ix1 k')) (fun k' => x11 (ix1 k')) k := by
  unfold row2 normed
  simp only [val_main_v102_apply, val_main_v103_apply, val_main_v104_apply, val_main_v105_apply, val_main_v106_apply, val_main_v107_apply, val_main_v108_apply, val_main_c_apply, val_main_c_0_apply, val_main_cst_apply, val_main_cst_1_apply, val_main_cst_2_apply, val_main_cst_3_apply, val_main_cst_4_apply, val_main_cst_5_apply, val_main_cst_6_apply, val_main_cst_7_apply, val_main_cst_8_apply, val_main_call0_cst_apply, val_main_call0_v0_apply, val_main_c_9_apply, val_main_c_10_apply, val_main_cst_11_apply, val_main_cst_12_apply, val_main_cst_13_apply, val_main_cst_14_apply, val_main_cst_15_apply, val_main_cst_16_apply, val_main_cst_17_apply, val_main_cst_18_apply, val_main_cst_19_apply, idx_main_v20_ix, idx_main_v21_ix, idx_main_v23_ix, lidx_main_v24_ix, ridx_main_v24_ix, idx_main_v25_ix, idx_main_v26_ix, idx_main_v28_ix, lidx_main_v29_ix, ridx_main_v29_ix, idx_main_v31_ix, idx_main_v32_ix, idx_main_v35_ix, idx_main_v38_ix, idx_main_v39_ix, idx_main_v42_ix, idx_main_v47_ix, idx_main_v49_ix, idx_main_v50_ix, idx_main_v52_ix, idx_main_v53_ix, idx_main_v73_ix, idx_main_v74_ix, idx_main_v76_ix, lidx_main_v77_ix, ridx_main_v77_ix, idx_main_v78_ix, idx_main_v79_ix, idx_main_v81_ix, lidx_main_v82_ix, ridx_main_v82_ix, idx_main_v84_ix, idx_main_v85_ix, idx_main_v88_ix, idx_main_v91_ix, idx_main_v92_ix, idx_main_v95_ix, idx_main_v100_ix, idx_main_v102_ix, idx_main_v103_ix, idx_main_v105_ix, idx_main_v106_ix, Ideal.addf_def, Ideal.subf_def, Ideal.mulf_def, Ideal.hostDivf_def, Ideal.maximumf_def, Ideal.hostUnary_rsqrt_def, Ideal.ofBits_def, norm2_at, lin2_at]

end Cert.ReferenceIdeal.RowRead

end
-- ==== Proof.Bridge.lean ====
/-
  The two programs compute one function.

  They differ in two places only. The kernel program multiplies a node's neighbour sum by `1 / max (deg) 1`, the
  reference divides it by `max (deg) 1`: on the extended reals `s · (1 · d⁻¹) = s · d⁻¹` for every `s` as soon as
  `d ≠ 0`, and `max (deg) 1 ≥ 1` is never zero — no finiteness of the inputs is used. And the kernel program runs each
  layer tile by tile inside a region, the reference with whole-array operations: both are the row function of
  `RowSpec` of the same rows (the kernel's transposed weights and reshaped vectors read back at the transposed and
  flattened indices).
-/
import proofs.«123757_j85555748536460_1_alg».proof.Proof.KernelHost
import proofs.«123757_j85555748536460_1_alg».proof.Proof.KernelHostIdx
import proofs.«123757_j85555748536460_1_alg».proof.Proof.RefRead
import Idealize.ShloMosaic.Lib.IdealHost

set_option maxRecDepth 16384

noncomputable section

namespace Cert.Bridge

open Idealize.ShloMosaic Idealize.ShloMosaic.ValueIdx Cert.RowSpec
open Cert.KernelIdeal.HostVal Cert.KernelIdeal.Arr
open Cert.ReferenceIdeal Cert.ReferenceIdeal.Read Cert.ReferenceIdeal.RowRead

/-! ## The law -/

/-- Multiplying by the reciprocal of a clamped degree is dividing by it, for every extended real `s`. -/
theorem mul_inv_clamped (s d : EReal) : s * Ideal.div 1 (max d 1) = Ideal.div s (max d 1) := by
  have h01 : (0 : EReal) < 1 := by exact_mod_cast (zero_lt_one : (0 : ℝ) < 1)
  have h : max d 1 ≠ 0 := ne_of_gt (lt_of_lt_of_le h01 (le_max_right d 1))
  unfold Ideal.div
  rw [if_neg h, if_neg h, one_mul]

/-! ## The mean aggregation -/

/-- The reference's neighbour sum of a feature array. -/
def nsumR (feat : CF S50000x512) (x1 : CI S2x400000) : CF S50000x512 :=
  Host.scatterAdd (F := Ideal) (φ := .f32) scatter_S50000x512_S400000x1_S400000x512_1_0_0_1 (val_main_v11 (F := Ideal)) (val_main_v12 (F := Ideal) x1)
    (Host.gather gather_S50000x512_S400000x1_S400000x512_1_0_n_n_0_1_1512 feat (val_main_v9 (F := Ideal) x1))

/-- The reference's mean aggregation of a feature array: the neighbour sum DIVIDED by the clamped degree of the row. -/
def aggR (feat : CF S50000x512) (x1 : CI S2x400000) : CF S50000x512 :=
  Host.divf (F := Ideal) (φ := .f32) (nsumR feat x1) (val_main_v21 (F := Ideal) x1)

/-- The first layer's aggregation in the reference is `aggR` of the node features. -/
theorem v22_eq (x0 : CF S50000x512) (x1 : CI S2x400000) : val_main_v22 (F := Ideal) x0 x1 = aggR x0 x1 := rfl

/-- The second layer's aggregation in the reference is `aggR` of the first layer's output. -/
theorem v75_eq (x0 : CF S50000x512) (x1 : CI S2x400000) (x2 : CF S512x512) (x3 : CF S512) (x4 : CF S512x512) (x8 : CF S512) (x9 : CF S512) :
    val_main_v75 (F := Ideal) x0 x1 x2 x3 x4 x8 x9 = aggR (val_main_v56 (F := Ideal) x0 x1 x2 x3 x4 x8 x9) x1 := rfl

/-- The two programs' neighbour sums are one array (the same gather and scatter-add of the same indices). -/
theorem nsum_eq (feat : CF S50000x512) (x1 : CI S2x400000) : neighbourSum feat (srcIdx x1) (dstIdx x1) = nsumR feat x1 := rfl

/-- The two programs' degrees are one vector. -/
theorem deg_eq (x1 : CI S2x400000) : degree x1 = val_main_v17 (F := Ideal) x1 := rfl

/-- The host's quotient of two arrays, read at an index. -/
theorem hostDivf_at (A B : CF S50000x512) (i : S50000x512.Idx) :
    Host.divf (F := Ideal) (φ := .f32) A B i = Ideal.div (A i) (B i) := rfl

/-- The reference's clamped degree at a node. -/
theorem v19_at (x1 : CI S2x400000) (r : Fin 50000) :
    val_main_v19 (F := Ideal) x1 (ix1 r) = max (val_main_v17 (F := Ideal) x1 (ix1 r)) (Ideal.ofBits .f32 0x3F800000#32) := by
  rw [val_main_v19_apply, val_main_v18_apply, val_main_cst_3_apply]
  rfl

/-- THE AGGREGATION: the kernel program's product with the inverse clamped degree is the reference's quotient. -/
theorem agg_eq (feat : CF S50000x512) (x1 : CI S2x400000) :
    aggK feat (srcIdx x1) (dstIdx x1) (invDeg x1) = aggR feat x1 := by
  funext i
  obtain ⟨r, k, rfl⟩ : ∃ (r : Fin 50000) (k : Fin 512), i = ix2 r k := ⟨i 0, i 1, eq_ix2 i⟩
  have hR : aggR feat x1 (ix2 r k)
      = Ideal.div (nsumR feat x1 (ix2 r k)) (max (val_main_v17 (F := Ideal) x1 (ix1 r)) (Ideal.ofBits .f32 0x3F800000#32)) := by
    unfold aggR
    rw [hostDivf_at, val_main_v21_apply, idx_main_v21_ix, val_main_v20_apply, idx_main_v20_ix, v19_at]
  rw [aggK_at, hR, nsum_eq, deg_eq, Ideal.ofBits_one_f32]
  exact mul_inv_clamped _ _

/-! ## The layers -/

/-- THE FIRST LAYER: the kernel program's first-layer output is the reference's. -/
theorem H1_eq (x0 : CF S50000x512) (x1 : CI S2x400000) (x2 : CF S512x512) (x3 : CF S512) (x4 : CF S512x512) (x8 : CF S512) (x9 : CF S512) :
    H1 x0 x1 x2 x3 x4 x8 x9 = val_main_v56 (F := Ideal) x0 x1 x2 x3 x4 x8 x9 := by
  funext i
  obtain ⟨r, k, rfl⟩ : ∃ (r : Fin 50000) (k : Fin 512), i = ix2 r k := ⟨i 0, i 1, eq_ix2 i⟩
  rw [layer1_at, v22_eq, ← agg_eq]
  show row1 (fun j => aggK x0 (srcIdx x1) (dstIdx x1) (invDeg x1) (ix2 r j)) (fun j => x0 (ix2 r j)) (fun j k' => tr x2 (ix2 j k')) (fun j k' => tr x4 (ix2 j k'))
      (fun k' => asRow x3 (ix2 (0 : Fin 1) k')) (fun k' => asRow x8 (ix2 (0 : Fin 1) k')) (fun k' => asRow x9 (ix2 (0 : Fin 1) k')) k = _
  have hWl : (fun j k' : Fin 512 => tr x2 (ix2 j k')) = (fun j k' => x2 (ix2 k' j)) := funext fun j => funext fun k' => tr_at x2 j k'
  have hWr : (fun j k' : Fin 512 => tr x4 (ix2 j k')) = (fun j k' => x4 (ix2 k' j)) := funext fun j => funext fun k' => tr_at x4 j k'
  have hbl : (fun k' : Fin 512 => asRow x3 (ix2 (0 : Fin 1) k')) = (fun k' => x3 (ix1 k')) := funext fun k' => asRow_at x3 k'
  have hlw : (fun k' : Fin 512 => asRow x8 (ix2 (0 : Fin 1) k')) = (fun k' => x8 (ix1 k')) := funext fun k' => asRow_at x8 k'
  have hlb : (fun k' : Fin 512 => asRow x9 (ix2 (0 : Fin 1) k')) = (fun k' => x9 (ix1 k')) := funext fun k' => asRow_at x9 k'
  rw [hWl, hWr, hbl, hlw, hlb]

/-- THE RESULT: the kernel program's result is the reference's. -/
theorem kernelOut_eq (x0 : CF S50000x512) (x1 : CI S2x400000) (x2 : CF S512x512) (x3 : CF S512) (x4 : CF S512x512) (x5 : CF S512x512) (x6 : CF S512) (x7 : CF S512x512) (x8 : CF S512) (x9 : CF S512) (x10 : CF S512) (x11 : CF S512) :
    kernelOut x0 x1 x2 x3 x4 x5 x6 x7 x8 x9 x10 x11 = val_main_v108 (F := Ideal) x0 x1 x2 x3 x4 x5 x6 x7 x8 x9 x10 x11 := by
  funext i
  obtain ⟨r, k, rfl⟩ : ∃ (r : Fin 50000) (k : Fin 512), i = ix2 r k := ⟨i 0, i 1, eq_ix2 i⟩
  rw [layer2_at, v75_eq, ← agg_eq, ← H1_eq]
  show row2 (fun j => aggK (H1 x0 x1 x2 x3 x4 x8 x9) (srcIdx x1) (dstIdx x1) (invDeg x1) (ix2 r j)) (fun j => H1 x0 x1 x2 x3 x4 x8 x9 (ix2 r j)) (fun j k' => tr x5 (ix2 j k')) (fun j k' => tr x7 (ix2 j k'))
      (fun k' => asRow x6 (ix2 (0 : Fin 1) k')) (fun k' => asRow x10 (ix2 (0 : Fin 1) k')) (fun k' => asRow x11 (ix2 (0 : Fin 1) k')) k = _
  have hWl : (fun j k' : Fin 512 => tr x5 (ix2 j k')) = (fun j k' => x5 (ix2 k' j)) := funext fun j => funext fun k' => tr_at x5 j k'
  have hWr : (fun j k' : Fin 512 => tr x7 (ix2 j k')) = (fun j k' => x7 (ix2 k' j)) := funext fun j => funext fun k' => tr_at x7 j k'
  have hbl : (fun k' : Fin 512 => asRow x6 (ix2 (0 : Fin 1) k')) = (fun k' => x6 (ix1 k')) := funext fun k' => asRow_at x6 k'
  have hlw : (fun k' : Fin 512 => asRow x10 (ix2 (0 : Fin 1) k')) = (fun k' => x10 (ix1 k')) := funext fun k' => asRow_at x10 k'
  have hlb : (fun k' : Fin 512 => asRow x11 (ix2 (0 : Fin 1) k')) = (fun k' => x11 (ix1 k')) := funext fun k' => asRow_at x11 k'
  rw [hWl, hWr, hbl, hlw, hlb]

end Cert.Bridge

end
-- ==== Proof.lean ====
/- Two SAGE convolutions with mean aggregation, each followed by LayerNorm and a residual (the first also by a clamp
   at zero), computed by a kernel program — the dense part of each layer fused into one pipelined region over fifty row
   tiles, the gathers and scatter-adds on the host — and by a reference of whole-array operations.

   `Cert.Claim` is five conjuncts. The three frames: each program runs to the end without a fault and leaves its
   arguments as launched (the two kernel programs by their generated frame certificates, the reference by its generated run).
   `preserves`: the idealized kernel program is the kernel program's own text read over the extended reals (no rewrite
   was applied), so there is nothing to state. `algebraic`: over the extended reals the two idealized programs end with
   the same array. The kernel program's result is the second region's output array (Proof/KernelRun.lean), which is the
   second layer's whole-array function of what the host computed from the first region's output array
   (Proof/KernelArray.lean, Proof/KernelHost.lean); the reference's result is the same function of the arguments, entry
   by entry (Proof/RefRead.lean, Proof/Bridge.lean), the one algebraic step being that a neighbour sum times the
   reciprocal of a degree clamped at one is that sum divided by it. -/
import proofs.«123757_j85555748536460_1_alg».proof.Defs
import proofs.«123757_j85555748536460_1_alg».proof.Proof.Gen.Kernel
import proofs.«123757_j85555748536460_1_alg».proof.Proof.Gen.Kernel.Skeleton
import proofs.«123757_j85555748536460_1_alg».proof.Proof.Gen.Kernel.Launch
import proofs.«123757_j85555748536460_1_alg».proof.Proof.Gen.Kernel.Points
import proofs.«123757_j85555748536460_1_alg».proof.Proof.Gen.Kernel.Frame
import proofs.«123757_j85555748536460_1_alg».proof.Proof.Gen.KernelIdeal
import proofs.«123757_j85555748536460_1_alg».proof.Proof.Gen.KernelIdeal.Skeleton
import proofs.«123757_j85555748536460_1_alg».proof.Proof.Gen.KernelIdeal.Launch
import proofs.«123757_j85555748536460_1_alg».proof.Proof.Gen.KernelIdeal.Points
import proofs.«123757_j85555748536460_1_alg».proof.Proof.Gen.KernelIdeal.Frame
import proofs.«123757_j85555748536460_1_alg».proof.Proof.Gen.ReferenceIdeal
import proofs.«123757_j85555748536460_1_alg».proof.Proof.Gen.Pre_finite_inputs
import proofs.«123757_j85555748536460_1_alg».proof.Proof.Gen.ReferenceIdeal.Run
import proofs.«123757_j85555748536460_1_alg».proof.Proof.Gen.ReferenceIdeal.Read
import proofs.«123757_j85555748536460_1_alg».proof.Proof.KernelRun
import proofs.«123757_j85555748536460_1_alg».proof.Proof.KernelHost
import proofs.«123757_j85555748536460_1_alg».proof.Proof.Bridge
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_k : Cert.frame_Kernel := fun m ρ _ => Cert.Kernel.Gen.frame m ρ
/-- The idealized kernel program runs and leaves its arguments as launched. -/
theorem frame_ki : Cert.frame_KernelIdeal := fun m ρ _ => Cert.KernelIdeal.Gen.frame m ρ
/-- The idealized reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- No rewrite was applied in idealizing the kernel program. -/
theorem preserves : Cert.preserves_Kernel_KernelIdeal := trivial

/-- From memories that agree on the twelve arguments both idealized programs end with the reference's composed function
    of those arguments in their result buffers. -/
theorem algebraic : Cert.algebraic_KernelIdeal_ReferenceIdeal := by
  intro m ρ m' ρ' _ hagree
  refine ⟨fun c => Cert.ReferenceIdeal.Read.val_main_v108 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans ((Cert.KernelIdeal.HostVal.result_value m ρ c).trans (Cert.Bridge.kernelOut_eq _ _ _ _ _ _ _ _ _ _ _ _)), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v108_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
